-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S8x64 : Shape := ⟨2, ![8, 64]⟩
abbrev S1x64 : Shape := ⟨2, ![1, 64]⟩
abbrev S64x32 : Shape := ⟨2, ![64, 32]⟩
abbrev S1x32 : Shape := ⟨2, ![1, 32]⟩
abbrev S32x5 : Shape := ⟨2, ![32, 5]⟩
abbrev S1x5 : Shape := ⟨2, ![1, 5]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S1x64 : S_.BroadcastsInDim S1x64 (![] : Fin 0 → Fin S1x64.rank)
  reducesTo_S1x64_S_d0_1 : S1x64.ReducesTo [0, 1] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_
  bcast_S_S32x5 : S_.BroadcastsInDim S32x5 (![] : Fin 0 → Fin S32x5.rank)
  reducesTo_S32x5_S_d0_1 : S32x5.ReducesTo [0, 1] S_
  bcast_S_S1x5 : S_.BroadcastsInDim S1x5 (![] : Fin 0 → Fin S1x5.rank)
  reducesTo_S1x5_S_d0_1 : S1x5.ReducesTo [0, 1] S_

variable [Facts]

def fn_part1 {F : FTy → Type} [FloatOps F] (main_arg4 : FVec F S1x32 .f32) (main_arg5 : FVec F S32x5 .f32) (main_arg6 : FVec F S1x5 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32x5 .f32 := Host.absf main_arg5
  let main_cst_8 : FVec F S_ .f32 := constant S_ .f32 0x7F800000#32
  let main_v25 : FVec F S32x5 .f32 := broadcastInDim S32x5 ![] bcast_S_S32x5 main_cst_8
  let main_v26 : IVec S32x5 1 := cmpf .olt main_v24 main_v25
  let main_c_9 : IVec S_ 1 := constantI S_ 1 1#1
  let main_v27 : IVec S_ 1 := (fun x v => Host.reduce IntOp.andi x v reducesTo_S32x5_S_d0_1 h_S_) main_v26 main_c_9
  let main_v28 : IVec S_ 1 := andi main_v23 main_v27
  let main_v29 : FVec F S1x5 .f32 := Host.absf main_arg6
  let main_cst_10 : FVec F S_ .f32 := constant S_ .f32 0x7F800000#32
  let main_v30 : FVec F S1x5 .f32 := broadcastInDim S1x5 ![] bcast_S_S1x5 main_cst_10
  let main_v31 : IVec S1x5 1 := cmpf .olt main_v29 main_v30
  let main_c_11 : IVec S_ 1 := constantI S_ 1 1#1
  let main_v32 : IVec S_ 1 := (fun x v => Host.reduce IntOp.andi x v reducesTo_S1x5_S_d0_1 h_S_) main_v31 main_c_11
  let main_v33 : IVec S_ 1 := andi main_v28 main_v32
  main_v33

def fn {F : FTy → Type} [FloatOps F] (main_arg0 : FVec F S2000000x3 .f32) (main_arg1 : FVec F S8x64 .f32) (main_arg2 : FVec F S1x64 .f32) (main_arg3 : FVec F S64x32 .f32) (main_arg4 : FVec F S1x32 .f32) (main_arg5 : FVec F S32x5 .f32) (main_arg6 : FVec F S1x5 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_v13 main_v16
-- ==== Kernel.lean ====
abbrev S2000000x3 : Shape := ⟨2, ![2000000, 3]⟩
abbrev S8x64 : Shape := ⟨2, ![8, 64]⟩
abbrev S1x64 : Shape := ⟨2, ![1, 64]⟩
abbrev S64x32 : Shape := ⟨2, ![64, 32]⟩
abbrev S1x32 : Shape := ⟨2, ![1, 32]⟩
abbrev S32x5 : Shape := ⟨2, ![32, 5]⟩
abbrev S1x5 : Shape := ⟨2, ![1, 5]⟩
abbrev S3x2000000 : Shape := ⟨2, ![3, 2000000]⟩
abbrev S3x64 : Shape := ⟨2, ![3, 64]⟩
abbrev S64x3 : Shape := ⟨2, ![64, 3]⟩
abbrev S64x1 : Shape := ⟨2, ![64, 1]⟩
abbrev S64x4 : Shape := ⟨2, ![64, 4]⟩
abbrev S32x64 : Shape := ⟨2, ![32, 64]⟩
abbrev S5x32 : Shape := ⟨2, ![5, 32]⟩
abbrev S32x1 : Shape := ⟨2, ![32, 1]⟩
abbrev S5x1 : Shape := ⟨2, ![5, 1]⟩
abbrev S5x2000000 : Shape := ⟨2, ![5, 2000000]⟩
abbrev S2000000x5 : Shape := ⟨2, ![2000000, 5]⟩
abbrev S3x16384 : Shape := ⟨2, ![3, 16384]⟩
abbrev S5x16384 : Shape := ⟨2, ![5, 16384]⟩
abbrev S1x16384 : Shape := ⟨2, ![1, 16384]⟩
abbrev S4x16384 : Shape := ⟨2, ![4, 16384]⟩
abbrev S64x16384 : Shape := ⟨2, ![64, 16384]⟩
abbrev S32x16384 : Shape := ⟨2, ![32, 16384]⟩

abbrev nBuf : Space → Nat
  | .hbm => 18
  | .vmem => 9
  | .smem => 0
  | _ => 0

abbrev bufTy : (tb : Table) → Fin (tcTables nBuf tb) → BufTy
  | .hbm, ⟨0, _⟩ => ⟨S2000000x3, .f32⟩
  | .hbm, ⟨1, _⟩ => ⟨S8x64, .f32⟩
  | .hbm, ⟨2, _⟩ => ⟨S1x64, .f32⟩
  | .hbm, ⟨3, _⟩ => ⟨S64x32, .f32⟩
  | .hbm, ⟨4, _⟩ => ⟨S1x32, .f32⟩
  | .hbm, ⟨5, _⟩ => ⟨S32x5, .f32⟩
  | .hbm, ⟨6, _⟩ => ⟨S1x5, .f32⟩
  | .hbm, ⟨7, _⟩ => ⟨S3x2000000, .f32⟩
  | .hbm, ⟨8, _⟩ => ⟨S3x64, .f32⟩
  | .hbm, ⟨9, _⟩ => ⟨S64x3, .f32⟩
  | .hbm, ⟨10, _⟩ => ⟨S64x1, .f32⟩
  | .hbm, ⟨11, _⟩ => ⟨S64x4, .f32⟩
  | .hbm, ⟨12, _⟩ => ⟨S32x64, .f32⟩
  | .hbm, ⟨13, _⟩ => ⟨S5x32, .f32⟩
  | .hbm, ⟨14, _⟩ => ⟨S32x1, .f32⟩
  | .hbm, ⟨15, _⟩ => ⟨S5x1, .f32⟩
  | .hbm, ⟨16, _⟩ => ⟨S5x2000000, .f32⟩
  | .hbm, ⟨17, _⟩ => ⟨S2000000x5, .f32⟩
  | .local _ .vmem, ⟨0, _⟩ => ⟨S3x16384, .f32⟩
  | .local _ .vmem, ⟨1, _⟩ => ⟨S3x16384, .f32⟩
  | .local _ .vmem, ⟨2, _⟩ => ⟨S64x4, .f32⟩
  | .local _ .vmem, ⟨3, _⟩ => ⟨S32x1, .f32⟩
  | .local _ .vmem, ⟨4, _⟩ => ⟨S32x64, .f32⟩
  | .local _ .vmem, ⟨5, _⟩ => ⟨S5x1, .f32⟩
  | .local _ .vmem, ⟨6, _⟩ => ⟨S5x32, .f32⟩
  | .local _ .vmem, ⟨7, _⟩ => ⟨S5x16384, .f32⟩
  | .local _ .vmem, ⟨8, _⟩ => ⟨S5x16384, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2000000x3_S3x2000000_1_0 : S2000000x3.Transposes [1, 0] S3x2000000
  slices_S8x64_S3x64_0_0 : S8x64.Slices ![0, 0] S3x64
  transposes_S3x64_S64x3_1_0 : S3x64.Transposes [1, 0] S64x3
  transposes_S1x64_S64x1_1_0 : S1x64.Transposes [1, 0] S64x1
  concatenates_S64x3_S64x1_S64x4_d1 : Shape.Concatenates [S64x3, S64x1] S64x4 1
  transposes_S64x32_S32x64_1_0 : S64x32.Transposes [1, 0] S32x64
  transposes_S32x5_S5x32_1_0 : S32x5.Transposes [1, 0] S5x32
  transposes_S1x32_S32x1_1_0 : S1x32.Transposes [1, 0] S32x1
  transposes_S1x5_S5x1_1_0 : S1x5.Transposes [1, 0] S5x1
  transposes_S5x2000000_S2000000x5_1_0 : S5x2000000.Transposes [1, 0] S2000000x5
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  concatenates_S3x16384_S1x16384_S4x16384_d0 : Shape.Concatenates [S3x16384, S1x16384] S4x16384 0
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S5x32_S5x32_0_0 : ∀ a, (![0, 0] : Fin 2 → Nat) a + S5x32.size a ≤ S5x32.size a
  h_S5x32 : 0 < S5x32.numel
  shapeCasts_S5x32_S5x32 : S5x32.ShapeCasts S5x32
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x16384 : S5x1.Broadcasts S5x16384
  inb_S5x16384_S5x16384_0_0 : ∀ a, (![0, 0] : Fin 2 → Nat) a + S5x16384.size a ≤ S5x16384.size a
  h_S5x16384 : 0 < S5x16384.numel
  dot_S64x4_S4x16384_S64x16384_1_0_0_1_n_n_wf : DotDims.WF S64x4 S4x16384 S64x16384 [1] [0] [0] [1] [] []
  dot_S32x64_S64x16384_S32x16384_1_0_0_1_n_n_wf : DotDims.WF S32x64 S64x16384 S32x16384 [1] [0] [0] [1] [] []
  dot_S5x32_S32x16384_S5x16384_1_0_0_1_n_n_wf : DotDims.WF S5x32 S32x16384 S5x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x16384.size a < S3x2000000.size a
  hwx0_0 : ∀ i : grid0.Coords, EltTy.bits .f32 = 32 ∨ (Rect.unit (s := S3x2000000) (fun a => cc0_transform_0 i a * S3x16384.size a) (fun a => (Pipeline.Clip.of (cc0_transform_0 i a) (S3x16384.size a) (S3x2000000.size a)).extent (S3x16384.size a)) fun a => Pipeline.Clip.inb (Pipeline.Clip.ok_of (hstart0_0 i a))).WholeWords (EltTy.packing .f32)
  hwxs0_0 : ∀ i : grid0.Coords, EltTy.bits .f32 = 32 ∨ (Rect.unit (s := S3x16384) (fun _ => 0) (fun a => (Pipeline.Clip.of (cc0_transform_0 i a) (S3x16384.size a) (S3x2000000.size a)).extent (S3x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x1.size a ≤ S5x1.size a
  hwx0_4 : ∀ i : grid0.Coords, EltTy.bits .f32 = 32 ∨ (Rect.block (s := S5x1) S5x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x32.size a ≤ S5x32.size a
  hwx0_5 : ∀ i : grid0.Coords, EltTy.bits .f32 = 32 ∨ (Rect.block (s := S5x32) S5x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S5x16384.size a < S5x2000000.size a
  hwx0_6 : ∀ i : grid0.Coords, EltTy.bits .f32 = 32 ∨ (Rect.unit (s := S5x2000000) (fun a => cc0_transform_6 i a * S5x16384.size a) (fun a => (Pipeline.Clip.of (cc0_transform_6 i a) (S5x16384.size a) (S5x2000000.size a)).extent (S5x16384.size a)) fun a => Pipeline.Clip.inb (Pipeline.Clip.ok_of (hstart0_6 i a))).WholeWords (EltTy.packing .f32)
  hwxs0_6 : ∀ i : grid0.Coords, EltTy.bits .f32 = 32 ∨ (Rect.unit (s := S5x16384) (fun _ => 0) (fun a => (Pipeline.Clip.of (cc0_transform_6 i a) (S5x16384.size a) (S5x2000000.size a)).extent (S5x16384.size a)) fun a => (Nat.zero_add _).trans_le (Pipeline.Clip.extent_le (Pipeline.Clip.ok_of (hstart0_6 i a)))).WholeWords (EltTy.packing .f32)

variable [Facts₀]

def dot_S64x4_S4x16384_S64x16384_1_0_0_1_n_n : DotDims S64x4 S4x16384 S64x16384 where
  lhsContracting := [1]
  rhsContracting := [0]
  lhsNonContracting := [0]
  rhsNonContracting := [1]
  lhsBatch := []
  rhsBatch := []
  wf := dot_S64x4_S4x16384_S64x16384_1_0_0_1_n_n_wf
def dot_S32x64_S64x16384_S32x16384_1_0_0_1_n_n : DotDims S32x64 S64x16384 S32x16384 where
  lhsContracting := [1]
  rhsContracting := [0]
  lhsNonContracting := [0]
  rhsNonContracting := [1]
  lhsBatch := []
  rhsBatch := []
  wf := dot_S32x64_S64x16384_S32x16384_1_0_0_1_n_n_wf
def dot_S5x32_S32x16384_S5x16384_1_0_0_1_n_n : DotDims S5x32 S32x16384 S5x16384 where
  lhsContracting := [1]
  rhsContracting := [0]
  lhsNonContracting := [0]
  rhsNonContracting := [1]
  lhsBatch := []
  rhsBatch := []
  wf := dot_S5x32_S32x16384_S5x16384_1_0_0_1_n_n_wf

abbrev win0_0 : Pipeline.Window sig grid0 :=
  Pipeline.Window.ofSpecClip (Memref.whole main_call0_v0) S3x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v4) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S5x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S5x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_call0_v9) S5x16384.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S8x64 : Shape := ⟨2, ![8, 64]⟩
abbrev S1x64 : Shape := ⟨2, ![1, 64]⟩
abbrev S64x32 : Shape := ⟨2, ![64, 32]⟩
abbrev S1x32 : Shape := ⟨2, ![1, 32]⟩
abbrev S32x5 : Shape := ⟨2, ![32, 5]⟩
abbrev S1x5 : Shape := ⟨2, ![1, 5]⟩
abbrev S_ : Shape := ⟨0, ![]⟩
abbrev S2000896x8 : Shape := ⟨2, ![2000896, 8]⟩
abbrev S2000896x5 : Shape := ⟨2, ![2000896, 5]⟩
abbrev S2000000x5 : Shape := ⟨2, ![2000000, 5]⟩
abbrev S2048x8 : Shape := ⟨2, ![2048, 8]⟩
abbrev S2048x5 : Shape := ⟨2, ![2048, 5]⟩
abbrev S2048x64 : Shape := ⟨2, ![2048, 64]⟩
abbrev S2048x32 : Shape := ⟨2, ![2048, 32]⟩

abbrev nBuf : Space → Nat
  | .hbm => 12
  | .vmem => 10
  | .smem => 0
  | _ => 0

abbrev bufTy : (tb : Table) → Fin (tcTables nBuf tb) → BufTy
  | .hbm, ⟨0, _⟩ => ⟨S2000000x3, .f32⟩
  | .hbm, ⟨1, _⟩ => ⟨S8x64, .f32⟩
  | .hbm, ⟨2, _⟩ => ⟨S1x64, .f32⟩
  | .hbm, ⟨3, _⟩ => ⟨S64x32, .f32⟩
  | .hbm, ⟨4, _⟩ => ⟨S1x32, .f32⟩
  | .hbm, ⟨5, _⟩ => ⟨S32x5, .f32⟩
  | .hbm, ⟨6, _⟩ => ⟨S1x5, .f32⟩
  | .hbm, ⟨7, _⟩ => ⟨S_, .i32⟩
  | .hbm, ⟨8, _⟩ => ⟨S_, .f32⟩
  | .hbm, ⟨9, _⟩ => ⟨S2000896x8, .f32⟩
  | .hbm, ⟨10, _⟩ => ⟨S2000896x5, .f32⟩
  | .hbm, ⟨11, _⟩ => ⟨S2000000x5, .f32⟩
  | .local _ .vmem, ⟨0, _⟩ => ⟨S2048x8, .f32⟩
  | .local _ .vmem, ⟨1, _⟩ => ⟨S2048x8, .f32⟩
  | .local _ .vmem, ⟨2, _⟩ => ⟨S8x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32x5, .f32⟩
  | .local _ .vmem, ⟨7, _⟩ => ⟨S1x5, .f32⟩
  | .local _ .vmem, ⟨8, _⟩ => ⟨S2048x5, .f32⟩
  | .local _ .vmem, ⟨9, _⟩ => ⟨S2048x5, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S2000000x3_S2000896x8_08960_050 : S2000000x3.Pads (![0, 0] : Fin 2 → Nat) ![896, 5] ![0, 0] S2000896x8
  h_S_ : 0 < S_.numel
  slices_S2000896x5_S2000000x5_0_0 : S2000896x5.Slices ![0, 0] S2000000x5
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  broadcasts_S1x32_S2048x32 : S1x32.Broadcasts S2048x32
  inb_S32x5_S32x5_0_0 : ∀ a, (![0, 0] : Fin 2 → Nat) a + S32x5.size a ≤ S32x5.size a
  h_S32x5 : 0 < S32x5.numel
  inb_S1x5_S1x5_0_0 : ∀ a, (![0, 0] : Fin 2 → Nat) a + S1x5.size a ≤ S1x5.size a
  h_S1x5 : 0 < S1x5.numel
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  dot_S2048x8_S8x64_S2048x64_1_0_0_1_n_n_wf : DotDims.WF S2048x8 S8x64 S2048x64 [1] [0] [0] [1] [] []
  dot_S2048x64_S64x32_S2048x32_1_0_0_1_n_n_wf : DotDims.WF S2048x64 S64x32 S2048x32 [1] [0] [0] [1] [] []
  dot_S2048x32_S32x5_S2048x5_1_0_0_1_n_n_wf : DotDims.WF S2048x32 S32x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8.size a ≤ S2000896x8.size a
  hwx0_0 : ∀ i : grid0.Coords, EltTy.bits .f32 = 32 ∨ (Rect.block (s := S2000896x8) S2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x5.size a ≤ S32x5.size a
  hwx0_5 : ∀ i : grid0.Coords, EltTy.bits .f32 = 32 ∨ (Rect.block (s := S32x5) S32x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x5.size a ≤ S2000896x5.size a
  hwx0_7 : ∀ i : grid0.Coords, EltTy.bits .f32 = 32 ∨ (Rect.block (s := S2000896x5) S2048x5.size (cc0_transform_7 i) (hinb0_7 i)).WholeWords (EltTy.packing .f32)

variable [Facts₀]

def dot_S2048x8_S8x64_S2048x64_1_0_0_1_n_n : DotDims S2048x8 S8x64 S2048x64 where
  lhsContracting := [1]
  rhsContracting := [0]
  lhsNonContracting := [0]
  rhsNonContracting := [1]
  lhsBatch := []
  rhsBatch := []
  wf := dot_S2048x8_S8x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x5_S2048x5_1_0_0_1_n_n : DotDims S2048x32 S32x5 S2048x5 where
  lhsContracting := [1]
  rhsContracting := [0]
  lhsNonContracting := [0]
  rhsNonContracting := [1]
  lhsBatch := []
  rhsBatch := []
  wf := dot_S2048x32_S32x5_S2048x5_1_0_0_1_n_n_wf

abbrev win0_0 : Pipeline.Window sig grid0 :=
  Pipeline.Window.ofSpec (Memref.whole main_call0_v0) S2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S2048x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.KBodyB.lean ====
/-
  The kernel body as a Hoare triple, and the frame of the program around it.

  The body reads its seven staging buffers whole, computes one [5, 16384] block from the six inputs, and overwrites the
  result's buffer with it. That holds whatever the buffers held: the last block of `x` overhangs the array (2,000,000
  columns in blocks of 16,384: 122 whole blocks and one of 1,152 columns), and past the array's end its buffer holds
  words nothing names. For the frame — the program terminates, nothing faults, the arguments end as they began —
  nothing need be said of what the buffers hold, so the proof data relates nothing: every window's relation is `True`.
  The arguments are not among the pipeline's arrays (those are host-made copies: transposes, a slice, a concatenation),
  and the one line after the region writes only the result; so each argument ends as the region found it, which is as
  launched.
-/
import proofs.«137566_g2000506128658676_pallasbulk_1123_13_alg».proof.Proof.Gen.Kernel.Frame
import proofs.«137566_g2000506128658676_pallasbulk_1123_13_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev r0 : Rect S3x16384 := Rect.unit (s := S3x16384) ![0, 0] S3x16384.size inb_S3x16384_S3x16384_0_0
abbrev r1 : Rect S64x4 := Rect.unit (s := S64x4) ![0, 0] S64x4.size inb_S64x4_S64x4_0_0
abbrev r2 : Rect S32x1 := Rect.unit (s := S32x1) ![0, 0] S32x1.size inb_S32x1_S32x1_0_0
abbrev r3 : Rect S32x64 := Rect.unit (s := S32x64) ![0, 0] S32x64.size inb_S32x64_S32x64_0_0
abbrev r4 : Rect S5x1 := Rect.unit (s := S5x1) ![0, 0] S5x1.size inb_S5x1_S5x1_0_0
abbrev r5 : Rect S5x32 := Rect.unit (s := S5x32) ![0, 0] S5x32.size inb_S5x32_S5x32_0_0
abbrev r6 : Rect S5x16384 := Rect.unit (s := S5x16384) ![0, 0] S5x16384.size inb_S5x16384_S5x16384_0_0

/-- What the body leaves in the result's buffer, from what the six input buffers hold (in window order: the block of
    `x`ᵀ, the first layer's weights with its bias as a fourth column, the second bias as a column, the second layer's
    weights transposed, the third bias as a column, the third layer's weights transposed): its one store, whole. -/
def outBlock (x0 : Vec F S3x16384 .f32) (x1 : Vec F S64x4 .f32) (x2 : Vec F S32x1 .f32) (x3 : Vec F S32x64 .f32)
    (x4 : Vec F S5x1 .f32) (x5 : Vec F S5x32 .f32) : Vec F S5x16384 .f32 :=
  View.canon [⟨r6, k0_pay1 (View.ld x0 r0) (View.ld x1 r1) (View.ld x3 r3) (View.ld x2 r2) (View.ld x5 r5) (View.ld x4 r4)⟩]

/-- The one store covers the buffer. -/
theorem cover6 (p0 : Vec F S5x16384 .f32) (y : S5x16384.Idx) :
    ∃ pc ∈ ([⟨r6, p0⟩] : List (View.Piece (Elt F) S5x16384 .f32)), y ∈ pc.1.set :=
  View.cover_of_tiled [⟨r6, p0⟩] S5x16384.size (by rfl) y

set_option maxHeartbeats 1000000 in
/-- The body on whole staging memrefs, the inputs' at any contents `xW` and the result's at anything, runs to the
    continuation holding the inputs' as they were and the result's at `outBlock` of the inputs'. -/
theorem sound_kernel (c : Dev nD) (E : Set ℕ) (i : grid0.Coords) (arg1 : Memref sig .tc .vmem S3x16384 .f32) (harg1 : arg1.IsWhole)
    (arg2 : Memref sig .tc .vmem S64x4 .f32) (harg2 : arg2.IsWhole) (arg3 : Memref sig .tc .vmem S32x1 .f32) (harg3 : arg3.IsWhole)
    (arg4 : Memref sig .tc .vmem S32x64 .f32) (harg4 : arg4.IsWhole) (arg5 : Memref sig .tc .vmem S5x1 .f32) (harg5 : arg5.IsWhole)
    (arg6 : Memref sig .tc .vmem S5x32 .f32) (harg6 : arg6.IsWhole) (arg7 : Memref sig .tc .vmem S5x16384 .f32) (harg7 : arg7.IsWhole)
    (x0 : Vec F S3x16384 .f32) (x1 : Vec F S64x4 .f32) (x2 : Vec F S32x1 .f32) (x3 : Vec F S32x64 .f32) (x4 : Vec F S5x1 .f32)
    (x5 : Vec F S5x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__tmlp_kernel i arg1 harg1 arg2 harg2 arg3 harg3 arg4 harg4 arg5 harg5 arg6 harg6 arg7 harg7) K := by
  simp only [cc0__tmlp_kernel_eq_skeleton]; unfold cc0__tmlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The frame -/

/-- The proof data of the frame: the arrays as the region finds them; of what the body leaves in a buffer, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on buffers at any contents: it runs, and hands every buffer back. -/
theorem rsound_body (c : Dev nD) (t : Fin cfg0.N) (Y : (w : Fin cfg0.W) → (cfg0.win w).block.Idx → Elt F (cfg0.win w).elt) :
    iprop((rdats m c).Φ t.castSucc ∗ (rdats m c).owesAt () t.castSucc
      ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3)
      ∗ owns (c : Thread nD τ) (st0_4 t) fullShare (Y 4) ∗ owns (c : Thread nD τ) (st0_5 t) fullShare (Y 5)
      ∗ owns (c : Thread nD τ) (st0_6 t) fullShare (Y 6))
    ⊢ wp frame (wpE (defs₀ (F := F)) Variants.none c none) Set.univ (bodyAt0 t) (fun _ =>
      iprop((rdats m c).Φ t.succ ∗ (rdats m c).owesAt () t.succ
        ∗ (∃ X, ⌜(rdats m c).after 0 t (Y 0) X⌝ ∗ owns (c : Thread nD τ) (st0_0 t) fullShare X)
        ∗ (∃ X, ⌜(rdats m c).after 1 t (Y 1) X⌝ ∗ owns (c : Thread nD τ) (st0_1 t) fullShare X)
        ∗ (∃ X, ⌜(rdats m c).after 2 t (Y 2) X⌝ ∗ owns (c : Thread nD τ) (st0_2 t) fullShare X)
        ∗ (∃ X, ⌜(rdats m c).after 3 t (Y 3) X⌝ ∗ owns (c : Thread nD τ) (st0_3 t) fullShare X)
        ∗ (∃ X, ⌜(rdats m c).after 4 t (Y 4) X⌝ ∗ owns (c : Thread nD τ) (st0_4 t) fullShare X)
        ∗ (∃ X, ⌜(rdats m c).after 5 t (Y 5) X⌝ ∗ owns (c : Thread nD τ) (st0_5 t) fullShare X)
        ∗ (∃ X, ⌜(rdats m c).after 6 t (Y 6) X⌝ ∗ owns (c : Thread nD τ) (st0_6 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4, H5, H6⟩
  iapply (sound_kernel c Set.univ (grid0.coords t) _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  · iexists (outBlock (Y 0) (Y 1) (Y 2) (Y 3) (Y 4) (Y 5)); isplitr; · ipureintro; trivial
    iexact H6

/-- The body obligation of the frame's proof data. -/
theorem rbody (c : Dev nD) : (rdats (F := F) m c).BodyObligation (defs₀ (F := F)) Variants.none () Set.univ := fun t Y _ => by
  rw [bigSep_W0, bigSep_W0]
  exact rsound_body m c t Y

/-- The one line after the region writes the result and nothing else. -/
theorem tail_writes : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

set_option backward.isDefEq.respectTransparency.types false in
/-- Every weakly fair execution of @main terminates, nothing faulting, and every buffer outside the pipeline other than
    the result ends as the region found it. -/
theorem rrun_main : θ_run defs (onTc (τ := τ) (main (F := F))) (s₀ m ρ)
    (RDat.FramePostR cfg0 (rdats m) {main_v0} (fun c b => V0 m c (Proc.devRef .tc b))) :=
  Pipeline.RDat.θ_run_frame_around_T cfgs (0 : Fin 1) launch0 defs₀ Variants.none (rdats m) {main_v0} m ρ main
    (hbody := rbody m) (hshare := fun c w => by unfold RDat.share; split <;> rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

/-- The frame: the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have rest : ∀ b : Ref sig .tc, b ∈ Pipeline.restRefs sig cfg0.spec → b ≠ main_v0 →
        _ = V m c b := fun b hb hne => (h c).2 b (Finset.mem_sdiff.mpr ⟨hb, fun hm => hne (Finset.mem_singleton.mp hm)⟩)
    ⟨(rest main_arg0 (Pipeline.mem_restRefs_of main_arg0 (by decide) (by decide)) (by decide)).trans (V_main_arg0 m c),
     (rest main_arg1 (Pipeline.mem_restRefs_of main_arg1 (by decide) (by decide)) (by decide)).trans (V_main_arg1 m c),
     (rest main_arg2 (Pipeline.mem_restRefs_of main_arg2 (by decide) (by decide)) (by decide)).trans (V_main_arg2 m c),
     (rest main_arg3 (Pipeline.mem_restRefs_of main_arg3 (by decide) (by decide)) (by decide)).trans (V_main_arg3 m c),
     (rest main_arg4 (Pipeline.mem_restRefs_of main_arg4 (by decide) (by decide)) (by decide)).trans (V_main_arg4 m c),
     (rest main_arg5 (Pipeline.mem_restRefs_of main_arg5 (by decide) (by decide)) (by decide)).trans (V_main_arg5 m c),
     (rest main_arg6 (Pipeline.mem_restRefs_of main_arg6 (by decide) (by decide)) (by decide)).trans (V_main_arg6 m c)⟩)
    (rrun_main m ρ)

end Cert.Kernel.Body

end
-- ==== Proof.KBodyI.lean ====
/-
  The kernel body as a Hoare triple, and the frame of the program around it.

  The body reads its seven staging buffers whole, computes one [5, 16384] block from the six inputs, and overwrites the
  result's buffer with it. That holds whatever the buffers held: the last block of `x` overhangs the array (2,000,000
  columns in blocks of 16,384: 122 whole blocks and one of 1,152 columns), and past the array's end its buffer holds
  words nothing names. For the frame — the program terminates, nothing faults, the arguments end as they began —
  nothing need be said of what the buffers hold, so the proof data relates nothing: every window's relation is `True`.
  The arguments are not among the pipeline's arrays (those are host-made copies: transposes, a slice, a concatenation),
  and the one line after the region writes only the result; so each argument ends as the region found it, which is as
  launched.
-/
import proofs.«137566_g2000506128658676_pallasbulk_1123_13_alg».proof.Proof.Gen.KernelIdeal.Frame
import proofs.«137566_g2000506128658676_pallasbulk_1123_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev r0 : Rect S3x16384 := Rect.unit (s := S3x16384) ![0, 0] S3x16384.size inb_S3x16384_S3x16384_0_0
abbrev r1 : Rect S64x4 := Rect.unit (s := S64x4) ![0, 0] S64x4.size inb_S64x4_S64x4_0_0
abbrev r2 : Rect S32x1 := Rect.unit (s := S32x1) ![0, 0] S32x1.size inb_S32x1_S32x1_0_0
abbrev r3 : Rect S32x64 := Rect.unit (s := S32x64) ![0, 0] S32x64.size inb_S32x64_S32x64_0_0
abbrev r4 : Rect S5x1 := Rect.unit (s := S5x1) ![0, 0] S5x1.size inb_S5x1_S5x1_0_0
abbrev r5 : Rect S5x32 := Rect.unit (s := S5x32) ![0, 0] S5x32.size inb_S5x32_S5x32_0_0
abbrev r6 : Rect S5x16384 := Rect.unit (s := S5x16384) ![0, 0] S5x16384.size inb_S5x16384_S5x16384_0_0

/-- What the body leaves in the result's buffer, from what the six input buffers hold (in window order: the block of
    `x`ᵀ, the first layer's weights with its bias as a fourth column, the second bias as a column, the second layer's
    weights transposed, the third bias as a column, the third layer's weights transposed): its one store, whole. -/
def outBlock (x0 : Vec F S3x16384 .f32) (x1 : Vec F S64x4 .f32) (x2 : Vec F S32x1 .f32) (x3 : Vec F S32x64 .f32)
    (x4 : Vec F S5x1 .f32) (x5 : Vec F S5x32 .f32) : Vec F S5x16384 .f32 :=
  View.canon [⟨r6, k0_pay1 (View.ld x0 r0) (View.ld x1 r1) (View.ld x3 r3) (View.ld x2 r2) (View.ld x5 r5) (View.ld x4 r4)⟩]

/-- The one store covers the buffer. -/
theorem cover6 (p0 : Vec F S5x16384 .f32) (y : S5x16384.Idx) :
    ∃ pc ∈ ([⟨r6, p0⟩] : List (View.Piece (Elt F) S5x16384 .f32)), y ∈ pc.1.set :=
  View.cover_of_tiled [⟨r6, p0⟩] S5x16384.size (by rfl) y

set_option maxHeartbeats 1000000 in
/-- The body on whole staging memrefs, the inputs' at any contents `xW` and the result's at anything, runs to the
    continuation holding the inputs' as they were and the result's at `outBlock` of the inputs'. -/
theorem sound_kernel (c : Dev nD) (E : Set ℕ) (i : grid0.Coords) (arg1 : Memref sig .tc .vmem S3x16384 .f32) (harg1 : arg1.IsWhole)
    (arg2 : Memref sig .tc .vmem S64x4 .f32) (harg2 : arg2.IsWhole) (arg3 : Memref sig .tc .vmem S32x1 .f32) (harg3 : arg3.IsWhole)
    (arg4 : Memref sig .tc .vmem S32x64 .f32) (harg4 : arg4.IsWhole) (arg5 : Memref sig .tc .vmem S5x1 .f32) (harg5 : arg5.IsWhole)
    (arg6 : Memref sig .tc .vmem S5x32 .f32) (harg6 : arg6.IsWhole) (arg7 : Memref sig .tc .vmem S5x16384 .f32) (harg7 : arg7.IsWhole)
    (x0 : Vec F S3x16384 .f32) (x1 : Vec F S64x4 .f32) (x2 : Vec F S32x1 .f32) (x3 : Vec F S32x64 .f32) (x4 : Vec F S5x1 .f32)
    (x5 : Vec F S5x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlock x0 x1 x2 x3 x4 x5)) -∗ K ⟨⟩))
      ⊢ wp frame (wpE (defs₀ (F := F)) Variants.none c none) E
          (cc0__tmlp_kernel i arg1 harg1 arg2 harg2 arg3 harg3 arg4 harg4 arg5 harg5 arg6 harg6 arg7 harg7) K := by
  simp only [cc0__tmlp_kernel_eq_skeleton]; unfold cc0__tmlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The frame -/

/-- The proof data of the frame: the arrays as the region finds them; of what the body leaves in a buffer, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on buffers at any contents: it runs, and hands every buffer back. -/
theorem rsound_body (c : Dev nD) (t : Fin cfg0.N) (Y : (w : Fin cfg0.W) → (cfg0.win w).block.Idx → Elt F (cfg0.win w).elt) :
    iprop((rdats m c).Φ t.castSucc ∗ (rdats m c).owesAt () t.castSucc
      ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3)
      ∗ owns (c : Thread nD τ) (st0_4 t) fullShare (Y 4) ∗ owns (c : Thread nD τ) (st0_5 t) fullShare (Y 5)
      ∗ owns (c : Thread nD τ) (st0_6 t) fullShare (Y 6))
    ⊢ wp frame (wpE (defs₀ (F := F)) Variants.none c none) Set.univ (bodyAt0 t) (fun _ =>
      iprop((rdats m c).Φ t.succ ∗ (rdats m c).owesAt () t.succ
        ∗ (∃ X, ⌜(rdats m c).after 0 t (Y 0) X⌝ ∗ owns (c : Thread nD τ) (st0_0 t) fullShare X)
        ∗ (∃ X, ⌜(rdats m c).after 1 t (Y 1) X⌝ ∗ owns (c : Thread nD τ) (st0_1 t) fullShare X)
        ∗ (∃ X, ⌜(rdats m c).after 2 t (Y 2) X⌝ ∗ owns (c : Thread nD τ) (st0_2 t) fullShare X)
        ∗ (∃ X, ⌜(rdats m c).after 3 t (Y 3) X⌝ ∗ owns (c : Thread nD τ) (st0_3 t) fullShare X)
        ∗ (∃ X, ⌜(rdats m c).after 4 t (Y 4) X⌝ ∗ owns (c : Thread nD τ) (st0_4 t) fullShare X)
        ∗ (∃ X, ⌜(rdats m c).after 5 t (Y 5) X⌝ ∗ owns (c : Thread nD τ) (st0_5 t) fullShare X)
        ∗ (∃ X, ⌜(rdats m c).after 6 t (Y 6) X⌝ ∗ owns (c : Thread nD τ) (st0_6 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4, H5, H6⟩
  iapply (sound_kernel c Set.univ (grid0.coords t) _ _ _ _ _ _ _ _ _ _ _ _ _ _ (Y 0) (Y 1) (Y 2) (Y 3) (Y 4) (Y 5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  · iexists (outBlock (Y 0) (Y 1) (Y 2) (Y 3) (Y 4) (Y 5)); isplitr; · ipureintro; trivial
    iexact H6

/-- The body obligation of the frame's proof data. -/
theorem rbody (c : Dev nD) : (rdats (F := F) m c).BodyObligation (defs₀ (F := F)) Variants.none () Set.univ := fun t Y _ => by
  rw [bigSep_W0, bigSep_W0]
  exact rsound_body m c t Y

/-- The one line after the region writes the result and nothing else. -/
theorem tail_writes : ∀ ops ∈ ([hostOps1] : List (List (HloOp τ sig (Elt F)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective _ hb)

set_option backward.isDefEq.respectTransparency.types false in
/-- Every weakly fair execution of @main terminates, nothing faulting, and every buffer outside the pipeline other than
    the result ends as the region found it. -/
theorem rrun_main : θ_run defs (onTc (τ := τ) (main (F := F))) (s₀ m ρ)
    (RDat.FramePostR cfg0 (rdats m) {main_v0} (fun c b => V0 m c (Proc.devRef .tc b))) :=
  Pipeline.RDat.θ_run_frame_around_T cfgs (0 : Fin 1) launch0 defs₀ Variants.none (rdats m) {main_v0} m ρ main
    (hbody := rbody m) (hshare := fun c w => by unfold RDat.share; split <;> rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

/-- The frame: the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have rest : ∀ b : Ref sig .tc, b ∈ Pipeline.restRefs sig cfg0.spec → b ≠ main_v0 →
        _ = V m c b := fun b hb hne => (h c).2 b (Finset.mem_sdiff.mpr ⟨hb, fun hm => hne (Finset.mem_singleton.mp hm)⟩)
    ⟨(rest main_arg0 (Pipeline.mem_restRefs_of main_arg0 (by decide) (by decide)) (by decide)).trans (V_main_arg0 m c),
     (rest main_arg1 (Pipeline.mem_restRefs_of main_arg1 (by decide) (by decide)) (by decide)).trans (V_main_arg1 m c),
     (rest main_arg2 (Pipeline.mem_restRefs_of main_arg2 (by decide) (by decide)) (by decide)).trans (V_main_arg2 m c),
     (rest main_arg3 (Pipeline.mem_restRefs_of main_arg3 (by decide) (by decide)) (by decide)).trans (V_main_arg3 m c),
     (rest main_arg4 (Pipeline.mem_restRefs_of main_arg4 (by decide) (by decide)) (by decide)).trans (V_main_arg4 m c),
     (rest main_arg5 (Pipeline.mem_restRefs_of main_arg5 (by decide) (by decide)) (by decide)).trans (V_main_arg5 m c),
     (rest main_arg6 (Pipeline.mem_restRefs_of main_arg6 (by decide) (by decide)) (by decide)).trans (V_main_arg6 m c)⟩)
    (rrun_main m ρ)

end Cert.KernelIdeal.Body

end
-- ==== Proof.Spec.lean ====
/-
  The function both programs compute, on the extended reals: a three-layer perceptron 3 → 64 → 32 → 5 applied to
  each of the 2,000,000 rows of `x`.

  For one row `xr = (xr 0, xr 1, xr 2)` of features:
    h1r j = max (xr 0 · w1 0 j + xr 1 · w1 1 j + xr 2 · w1 2 j + b1 j) 0              (j < 64)
    h2r i = max (∑ j, h1r j · w2 j i + b2 i) 0                                        (i < 32)
    mlp o = ∑ i, h2r i · w3 i o + b3 o                                                 (o < 5)
  Only the first three rows of the 8-row `w1` enter: the other five meet zero columns.
  The result array holds, at (b, o), `mlp` of row `b` of `x`.
-/
import Idealize.ShloMosaic.PureOps.Ideal
import Idealize.ShloMosaic.Lib.ValueIdx

noncomputable section

open scoped BigOperators

namespace Cert.Spec

open Idealize.ShloMosaic Idealize.ShloMosaic.ValueIdx

variable (x : FVec Ideal ⟨2, ![2000000, 3]⟩ .f32) (xr : Fin 3 → EReal)
  (w1 : FVec Ideal ⟨2, ![8, 64]⟩ .f32) (b1 : FVec Ideal ⟨2, ![1, 64]⟩ .f32)
  (w2 : FVec Ideal ⟨2, ![64, 32]⟩ .f32) (b2 : FVec Ideal ⟨2, ![1, 32]⟩ .f32)
  (w3 : FVec Ideal ⟨2, ![32, 5]⟩ .f32) (b3 : FVec Ideal ⟨2, ![1, 5]⟩ .f32)

/-- The first hidden layer of one row of features, unit `j`: the three features against the first three rows of
    `w1`, the bias, the rectifier. -/
def h1r (j : Fin 64) : EReal :=
  max (xr 0 * w1 (ix2 (0 : Fin 8) j) + xr 1 * w1 (ix2 (1 : Fin 8) j) + xr 2 * w1 (ix2 (2 : Fin 8) j)
    + b1 (ix2 (0 : Fin 1) j)) 0

/-- The second hidden layer of one row, unit `i`. -/
def h2r (i : Fin 32) : EReal :=
  max ((∑ j : Fin 64, h1r xr w1 b1 j * w2 (ix2 j i)) + b2 (ix2 (0 : Fin 1) i)) 0

/-- The logits of one row, class `o`. -/
def mlp (o : Fin 5) : EReal :=
  (∑ i : Fin 32, h2r xr w1 b1 w2 b2 i * w3 (ix2 i o)) + b3 (ix2 (0 : Fin 1) o)

/-- Row `b` of `x`. -/
def row (b : Fin 2000000) : Fin 3 → EReal := fun k => x (ix2 b k)

/-- The logits at row `b`, class `o`. -/
def out (b : Fin 2000000) (o : Fin 5) : EReal := mlp (row x b) w1 b1 w2 b2 w3 b3 o

/-- The whole result array. -/
def G : FVec Ideal ⟨2, ![2000000, 5]⟩ .f32 := fun idx => out x w1 b1 w2 b2 w3 b3 (idx 0) (idx 1)

theorem G_ix2 (b : Fin 2000000) (o : Fin 5) : G x w1 b1 w2 b2 w3 b3 (ix2 b o) = out x w1 b1 w2 b2 w3 b3 b o := rfl

end Cert.Spec

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPayload.lean ====
/-
  The kernel body's arithmetic at one place of its result.

  One grid step holds 16384 columns of features, three rows `v0`, and stores the five rows
    out (o, j) = ∑ i, v18 (o, i) · h2 (i, j) + v21 (o, 0),
    h2 (i, j)  = max (∑ u, v9 (i, u) · h1 (u, j) + v12 (i, 0)) 0,
    h1 (u, j)  = max (v4 (u, 0) · v0 (0, j) + v4 (u, 1) · v0 (1, j) + v4 (u, 2) · v0 (2, j) + v4 (u, 3)) 0 :
  the features get a fourth row of ones, so that the fourth column of the packed first weights acts as the bias; each
  matrix product into the zero matrix is the sum over the contracted coordinate; the biases of the second and third
  layers are columns spread over the lanes; the rectifier is the maximum with zero.

  * `kh1`, `kh2`, `kout`: the closed form above;
  * `pay_at`: the stored value at `(o, j)` is `kout … o j`;
  * `kout_congr`: column `j` of the result reads only column `j` of the features;
  * `kout_eq_mlp` (`kout_eq_mlp'`): when column `j` of the features is the row `xr` and the operands are the
    transposed weights (the first three rows of `w1` beside `b1`), `kout … o j` is the specification's perceptron of `xr`
    at class `o` — products commuted under the sums, nothing else; no finiteness is needed.
-/
import proofs.«137566_g2000506128658676_pallasbulk_1123_13_alg».proof.Proof.Gen.KernelIdeal.Skeleton
import proofs.«137566_g2000506128658676_pallasbulk_1123_13_alg».proof.Proof.Spec
import proofs.«137566_g2000506128658676_pallasbulk_1123_13_alg».proof.Proof.LibBlock
import proofs.«137566_g2000506128658676_pallasbulk_1123_13_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## The closed form of one column of the kernel's result -/

/-- The first hidden layer at unit `u`, column `j`: the three feature rows against the first three columns of the
    packed weights, the fourth column as the bias, the rectifier. -/
def kh1 (v0 : Vec Ideal S3x16384 .f32) (v4 : Vec Ideal S64x4 .f32) (u : Fin 64) (j : Fin 16384) : EReal :=
  max (v4 (ix2 u (0 : Fin 4)) * v0 (ix2 (0 : Fin 3) j) + v4 (ix2 u (1 : Fin 4)) * v0 (ix2 (1 : Fin 3) j)
    + v4 (ix2 u (2 : Fin 4)) * v0 (ix2 (2 : Fin 3) j) + v4 (ix2 u (3 : Fin 4))) 0

/-- The second hidden layer at unit `i`, column `j`. -/
def kh2 (v0 : Vec Ideal S3x16384 .f32) (v4 : Vec Ideal S64x4 .f32) (v9 : Vec Ideal S32x64 .f32)
    (v12 : Vec Ideal S32x1 .f32) (i : Fin 32) (j : Fin 16384) : EReal :=
  max ((∑ u : Fin 64, v9 (ix2 i u) * kh1 v0 v4 u j) + v12 (ix2 i (0 : Fin 1))) 0

/-- The result at class `o`, column `j`. -/
def kout (v0 : Vec Ideal S3x16384 .f32) (v4 : Vec Ideal S64x4 .f32) (v9 : Vec Ideal S32x64 .f32)
    (v12 : Vec Ideal S32x1 .f32) (v18 : Vec Ideal S5x32 .f32) (v21 : Vec Ideal S5x1 .f32) (o : Fin 5) (j : Fin 16384) : EReal :=
  (∑ i : Fin 32, v18 (ix2 o i) * kh2 v0 v4 v9 v12 i j) + v21 (ix2 o (0 : Fin 1))

/-! ## The two literals -/

/-- The word `0x3F800000` encodes the number one. -/
theorem ofBits_one_f32 : Ideal.ofBits .f32 0x3F800000#32 = 1 := by
  simp [Ideal.ofBits, Ideal.ieee, -EReal.coe_mul]; norm_num

/-! ## Three rows above one row: the concatenation along the rows read at an index -/

section Concat
variable {α : Type} {n : ℕ}

/-- Three rows laid above one row: a row below the third reads the upper piece at the same place. -/
theorem concat_3_1_upper (x : (⟨2, ![3, n]⟩ : Shape).Idx → α) (y : (⟨2, ![1, n]⟩ : Shape).Idx → α)
    (h : Shape.Concatenates [(⟨2, ![3, n]⟩ : Shape), ⟨2, ![1, n]⟩] ⟨2, ![4, n]⟩ 0) (p : Fin 4) (k : Fin 3) (q : Fin n)
    (hk : k.val = p.val) :
    concatenate ⟨2, ![4, n]⟩ 0 [⟨⟨2, ![3, n]⟩, x⟩, ⟨⟨2, ![1, n]⟩, y⟩] h (ix2 p q) = x (ix2 k q) :=
  concatenate_pair_apply_left 0 x y h _ rfl _ (fun b => by
    match b with
    | ⟨0, _⟩ => exact hk
    | ⟨1, _⟩ => rfl)

/-- Three rows laid above one row: the fourth row reads the lower piece's one row. -/
theorem concat_3_1_lower (x : (⟨2, ![3, n]⟩ : Shape).Idx → α) (y : (⟨2, ![1, n]⟩ : Shape).Idx → α)
    (h : Shape.Concatenates [(⟨2, ![3, n]⟩ : Shape), ⟨2, ![1, n]⟩] ⟨2, ![4, n]⟩ 0) (p : Fin 4) (q : Fin n)
    (hp : p.val = 3) :
    concatenate ⟨2, ![4, n]⟩ 0 [⟨⟨2, ![3, n]⟩, x⟩, ⟨⟨2, ![1, n]⟩, y⟩] h (ix2 p q) = y (ix2 (0 : Fin 1) q) :=
  concatenate_pair_apply_right 0 x y h _ rfl rfl _
    (fun b hb => by
      match b with
      | ⟨0, _⟩ => exact absurd rfl hb
      | ⟨1, _⟩ => rfl)
    (by show 0 + 3 = p.val; omega)

end Concat

/-! ## The kernel body layer by layer -/

/-- The features with the row of ones beneath them. -/
def x4 (v0 : Vec Ideal S3x16384 .f32) : FVec Ideal S4x16384 .f32 :=
  concatenate S4x16384 0
    [⟨S3x16384, (shapeCast S3x16384 v0 shapeCasts_S3x16384_S3x16384 : FVec Ideal S3x16384 .f32)⟩,
     ⟨S1x16384, (broadcast S1x16384 (Scalar.ofBits (F := Ideal) .f32 0x3F800000#32) : FVec Ideal S1x16384 .f32)⟩]
    concatenates_S3x16384_S1x16384_S4x16384_d0

/-- A row below the third of the extended features is a feature row. -/
theorem x4_upper (v0 : Vec Ideal S3x16384 .f32) (p : Fin 4) (k : Fin 3) (j : Fin 16384) (hk : k.val = p.val) :
    x4 v0 (ix2 p j) = v0 (ix2 k j) := by
  unfold x4
  rw [shapeCast_self]
  exact concat_3_1_upper _ _ _ p k j hk

/-- The fourth row of the extended features is the constant one. -/
theorem x4_lower (v0 : Vec Ideal S3x16384 .f32) (p : Fin 4) (j : Fin 16384) (hp : p.val = 3) :
    x4 v0 (ix2 p j) = 1 := by
  unfold x4
  refine (concat_3_1_lower _ _ _ p j hp).trans ?_
  exact ofBits_one_f32

/-- The first hidden layer as the kernel computes it. -/
def a1 (v0 : Vec Ideal S3x16384 .f32) (v4 : Vec Ideal S64x4 .f32) : FVec Ideal S64x16384 .f32 :=
  maximumf
    (matmul dot_S64x4_S4x16384_S64x16384_1_0_0_1_n_n none
      (shapeCast S64x4 v4 shapeCasts_S64x4_S64x4 : FVec Ideal S64x4 .f32) (x4 v0)
      (constant (F := Ideal) S64x16384 .f32 0x00000000#32))
    (broadcast S64x16384 (Scalar.ofBits (F := Ideal) .f32 0x00000000#32))

theorem a1_at (v0 : Vec Ideal S3x16384 .f32) (v4 : Vec Ideal S64x4 .f32) (u : Fin 64) (j : Fin 16384) :
    a1 v0 v4 (ix2 u j) = kh1 v0 v4 u j := by
  unfold a1 kh1
  have hm := Cert.LibBlock.matmul_zero_ix2 dot_S64x4_S4x16384_S64x16384_1_0_0_1_n_n rfl rfl rfl rfl rfl rfl none
    (shapeCast S64x4 v4 shapeCasts_S64x4_S64x4 : FVec Ideal S64x4 .f32) (x4 v0) u j
  refine (maximumf_apply _ _ _).trans ?_
  refine congrArg₂ max (hm.trans ?_) Ideal.ofBits_zero_f32
  rw [shapeCast_self, Fin.sum_univ_four, x4_upper v0 0 0 j rfl, x4_upper v0 1 1 j rfl, x4_upper v0 2 2 j rfl,
    x4_lower v0 3 j rfl, mul_one]

/-- The second hidden layer as the kernel computes it. -/
def a2 (v0 : Vec Ideal S3x16384 .f32) (v4 : Vec Ideal S64x4 .f32) (v9 : Vec Ideal S32x64 .f32)
    (v12 : Vec Ideal S32x1 .f32) : FVec Ideal S32x16384 .f32 :=
  maximumf
    (addf
      (matmul dot_S32x64_S64x16384_S32x16384_1_0_0_1_n_n none
        (shapeCast S32x64 v9 shapeCasts_S32x64_S32x64 : FVec Ideal S32x64 .f32) (a1 v0 v4)
        (constant (F := Ideal) S32x16384 .f32 0x00000000#32))
      (broadcastTo S32x16384 (shapeCast S32x1 v12 shapeCasts_S32x1_S32x1 : FVec Ideal S32x1 .f32)
        broadcasts_S32x1_S32x16384))
    (broadcast S32x16384 (Scalar.ofBits (F := Ideal) .f32 0x00000000#32))

theorem a2_at (v0 : Vec Ideal S3x16384 .f32) (v4 : Vec Ideal S64x4 .f32) (v9 : Vec Ideal S32x64 .f32)
    (v12 : Vec Ideal S32x1 .f32) (i : Fin 32) (j : Fin 16384) :
    a2 v0 v4 v9 v12 (ix2 i j) = kh2 v0 v4 v9 v12 i j := by
  unfold a2 kh2
  have hm := Cert.LibBlock.matmul_zero_ix2 dot_S32x64_S64x16384_S32x16384_1_0_0_1_n_n rfl rfl rfl rfl rfl rfl none
    (shapeCast S32x64 v9 shapeCasts_S32x64_S32x64 : FVec Ideal S32x64 .f32) (a1 v0 v4) i j
  have hb := Cert.LibColumn.broadcastTo_a1_ab_apply
    (shapeCast S32x1 v12 shapeCasts_S32x1_S32x1 : FVec Ideal S32x1 .f32) broadcasts_S32x1_S32x16384 i j
  refine (maximumf_apply _ _ _).trans ?_
  refine congrArg₂ max ((addf_apply _ _ _).trans (congrArg₂ (· + ·) (hm.trans ?_) (hb.trans ?_)))
    Ideal.ofBits_zero_f32
  · rw [shapeCast_self]
    exact Finset.sum_congr rfl fun u _ => congrArg (v9 (ix2 i u) * ·) (a1_at v0 v4 u j)
  · rw [shapeCast_self]

/-- The stored value is the third layer over the second: the product of the third weights with the second hidden
    layer, plus the third bias column spread over the lanes. -/
theorem pay_eq (v0 : Vec Ideal S3x16384 .f32) (v4 : Vec Ideal S64x4 .f32) (v9 : Vec Ideal S32x64 .f32)
    (v12 : Vec Ideal S32x1 .f32) (v18 : Vec Ideal S5x32 .f32) (v21 : Vec Ideal S5x1 .f32) :
    k0_pay1 (F := Ideal) v0 v4 v9 v12 v18 v21 =
      addf
        (matmul dot_S5x32_S32x16384_S5x16384_1_0_0_1_n_n none
          (shapeCast S5x32 v18 shapeCasts_S5x32_S5x32 : FVec Ideal S5x32 .f32) (a2 v0 v4 v9 v12)
          (constant (F := Ideal) S5x16384 .f32 0x00000000#32))
        (broadcastTo S5x16384 (shapeCast S5x1 v21 shapeCasts_S5x1_S5x1 : FVec Ideal S5x1 .f32)
          broadcasts_S5x1_S5x16384) := rfl

/-- The kernel's stored value at class `o`, column `j`. -/
theorem pay_at (v0 : Vec Ideal S3x16384 .f32) (v4 : Vec Ideal S64x4 .f32) (v9 : Vec Ideal S32x64 .f32)
    (v12 : Vec Ideal S32x1 .f32) (v18 : Vec Ideal S5x32 .f32) (v21 : Vec Ideal S5x1 .f32) (o : Fin 5) (j : Fin 16384) :
    k0_pay1 (F := Ideal) v0 v4 v9 v12 v18 v21 (ix2 o j) = kout v0 v4 v9 v12 v18 v21 o j := by
  rw [pay_eq]
  unfold kout
  have hm := Cert.LibBlock.matmul_zero_ix2 dot_S5x32_S32x16384_S5x16384_1_0_0_1_n_n rfl rfl rfl rfl rfl rfl none
    (shapeCast S5x32 v18 shapeCasts_S5x32_S5x32 : FVec Ideal S5x32 .f32) (a2 v0 v4 v9 v12) o j
  have hb := Cert.LibColumn.broadcastTo_a1_ab_apply
    (shapeCast S5x1 v21 shapeCasts_S5x1_S5x1 : FVec Ideal S5x1 .f32) broadcasts_S5x1_S5x16384 o j
  refine (addf_apply _ _ _).trans (congrArg₂ (· + ·) (hm.trans ?_) (hb.trans ?_))
  · rw [shapeCast_self]
    exact Finset.sum_congr rfl fun i _ => congrArg (v18 (ix2 o i) * ·) (a2_at v0 v4 v9 v12 i j)
  · rw [shapeCast_self]

/-! ## Column `j` of the result reads only column `j` of the features -/

theorem kh1_congr (v0 v0' : Vec Ideal S3x16384 .f32) (v4 : Vec Ideal S64x4 .f32) (u : Fin 64) (j : Fin 16384)
    (h : ∀ k : Fin 3, v0 (ix2 k j) = v0' (ix2 k j)) : kh1 v0 v4 u j = kh1 v0' v4 u j := by
  unfold kh1
  rw [h 0, h 1, h 2]

theorem kh2_congr (v0 v0' : Vec Ideal S3x16384 .f32) (v4 : Vec Ideal S64x4 .f32) (v9 : Vec Ideal S32x64 .f32)
    (v12 : Vec Ideal S32x1 .f32) (i : Fin 32) (j : Fin 16384)
    (h : ∀ k : Fin 3, v0 (ix2 k j) = v0' (ix2 k j)) : kh2 v0 v4 v9 v12 i j = kh2 v0' v4 v9 v12 i j := by
  unfold kh2
  exact congrArg (fun s => max (s + v12 (ix2 i (0 : Fin 1))) 0)
    (Finset.sum_congr rfl fun u _ => congrArg (v9 (ix2 i u) * ·) (kh1_congr v0 v0' v4 u j h))

theorem kout_congr (v0 v0' : Vec Ideal S3x16384 .f32) (v4 : Vec Ideal S64x4 .f32) (v9 : Vec Ideal S32x64 .f32)
    (v12 : Vec Ideal S32x1 .f32) (v18 : Vec Ideal S5x32 .f32) (v21 : Vec Ideal S5x1 .f32) (o : Fin 5) (j : Fin 16384)
    (h : ∀ k : Fin 3, v0 (ix2 k j) = v0' (ix2 k j)) :
    kout v0 v4 v9 v12 v18 v21 o j = kout v0' v4 v9 v12 v18 v21 o j := by
  unfold kout
  exact congrArg (· + v21 (ix2 o (0 : Fin 1)))
    (Finset.sum_congr rfl fun i _ => congrArg (v18 (ix2 o i) * ·) (kh2_congr v0 v0' v4 v9 v12 i j h))

/-! ## The closed form is the specification's perceptron -/

/-- With the feature column the row `xr`, the packed first weights the transposed first three rows of `w1` beside
    the bias, and the other weights transposed, the kernel's column is the perceptron of `xr`. The kernel multiplies
    weight by activation where the specification multiplies activation by weight. -/
theorem kout_eq_mlp (v0 : Vec Ideal S3x16384 .f32) (v4 : Vec Ideal S64x4 .f32) (v9 : Vec Ideal S32x64 .f32)
    (v12 : Vec Ideal S32x1 .f32) (v18 : Vec Ideal S5x32 .f32) (v21 : Vec Ideal S5x1 .f32)
    (xr : Fin 3 → EReal)
    (w1 : FVec Ideal ⟨2, ![8, 64]⟩ .f32) (b1 : FVec Ideal ⟨2, ![1, 64]⟩ .f32)
    (w2 : FVec Ideal ⟨2, ![64, 32]⟩ .f32) (b2 : FVec Ideal ⟨2, ![1, 32]⟩ .f32)
    (w3 : FVec Ideal ⟨2, ![32, 5]⟩ .f32) (b3 : FVec Ideal ⟨2, ![1, 5]⟩ .f32) (o : Fin 5) (j : Fin 16384)
    (hx : ∀ k : Fin 3, v0 (ix2 k j) = xr k)
    (h40 : ∀ u : Fin 64, v4 (ix2 u (0 : Fin 4)) = w1 (ix2 (0 : Fin 8) u))
    (h41 : ∀ u : Fin 64, v4 (ix2 u (1 : Fin 4)) = w1 (ix2 (1 : Fin 8) u))
    (h42 : ∀ u : Fin 64, v4 (ix2 u (2 : Fin 4)) = w1 (ix2 (2 : Fin 8) u))
    (h4b : ∀ u : Fin 64, v4 (ix2 u (3 : Fin 4)) = b1 (ix2 (0 : Fin 1) u))
    (h9 : ∀ (i : Fin 32) (u : Fin 64), v9 (ix2 i u) = w2 (ix2 u i))
    (h12 : ∀ i : Fin 32, v12 (ix2 i (0 : Fin 1)) = b2 (ix2 (0 : Fin 1) i))
    (h18 : ∀ (o : Fin 5) (i : Fin 32), v18 (ix2 o i) = w3 (ix2 i o))
    (h21 : ∀ o : Fin 5, v21 (ix2 o (0 : Fin 1)) = b3 (ix2 (0 : Fin 1) o)) :
    kout v0 v4 v9 v12 v18 v21 o j = Cert.Spec.mlp xr w1 b1 w2 b2 w3 b3 o := by
  have e1 : ∀ u : Fin 64, kh1 v0 v4 u j = Cert.Spec.h1r xr w1 b1 u := fun u => by
    unfold kh1 Cert.Spec.h1r
    rw [hx 0, hx 1, hx 2, h40 u, h41 u, h42 u, h4b u, mul_comm (w1 (ix2 (0 : Fin 8) u)),
      mul_comm (w1 (ix2 (1 : Fin 8) u)), mul_comm (w1 (ix2 (2 : Fin 8) u))]
  have e2 : ∀ i : Fin 32, kh2 v0 v4 v9 v12 i j = Cert.Spec.h2r xr w1 b1 w2 b2 i := fun i => by
    unfold kh2 Cert.Spec.h2r
    rw [h12 i]
    refine congrArg (fun s => max (s + b2 (ix2 (0 : Fin 1) i)) 0) (Finset.sum_congr rfl fun u _ => ?_)
    rw [h9 i u, e1 u, mul_comm]
  unfold kout Cert.Spec.mlp
  rw [h21 o]
  refine congrArg (· + b3 (ix2 (0 : Fin 1) o)) (Finset.sum_congr rfl fun i _ => ?_)
  rw [h18 o i, e2 i, mul_comm]

/-- The same with the three weight columns named by one hypothesis over `k : Fin 3`. -/
theorem kout_eq_mlp' (v0 : Vec Ideal S3x16384 .f32) (v4 : Vec Ideal S64x4 .f32) (v9 : Vec Ideal S32x64 .f32)
    (v12 : Vec Ideal S32x1 .f32) (v18 : Vec Ideal S5x32 .f32) (v21 : Vec Ideal S5x1 .f32)
    (xr : Fin 3 → EReal)
    (w1 : FVec Ideal ⟨2, ![8, 64]⟩ .f32) (b1 : FVec Ideal ⟨2, ![1, 64]⟩ .f32)
    (w2 : FVec Ideal ⟨2, ![64, 32]⟩ .f32) (b2 : FVec Ideal ⟨2, ![1, 32]⟩ .f32)
    (w3 : FVec Ideal ⟨2, ![32, 5]⟩ .f32) (b3 : FVec Ideal ⟨2, ![1, 5]⟩ .f32) (o : Fin 5) (j : Fin 16384)
    (hx : ∀ k : Fin 3, v0 (ix2 k j) = xr k)
    (h4 : ∀ (u : Fin 64) (k : Fin 3),
      v4 (ix2 u (Fin.castLE (by decide) k : Fin 4)) = w1 (ix2 (Fin.castLE (by decide) k : Fin 8) u))
    (h4b : ∀ u : Fin 64, v4 (ix2 u (3 : Fin 4)) = b1 (ix2 (0 : Fin 1) u))
    (h9 : ∀ (i : Fin 32) (u : Fin 64), v9 (ix2 i u) = w2 (ix2 u i))
    (h12 : ∀ i : Fin 32, v12 (ix2 i (0 : Fin 1)) = b2 (ix2 (0 : Fin 1) i))
    (h18 : ∀ (o : Fin 5) (i : Fin 32), v18 (ix2 o i) = w3 (ix2 i o))
    (h21 : ∀ o : Fin 5, v21 (ix2 o (0 : Fin 1)) = b3 (ix2 (0 : Fin 1) o)) :
    kout v0 v4 v9 v12 v18 v21 o j = Cert.Spec.mlp xr w1 b1 w2 b2 w3 b3 o :=
  kout_eq_mlp v0 v4 v9 v12 v18 v21 xr w1 b1 w2 b2 w3 b3 o j hx (fun u => h4 u 0) (fun u => h4 u 1) (fun u => h4 u 2)
    h4b h9 h12 h18 h21

end Cert.KernelIdeal.KValue

end
-- ==== Proof.KLocal.lean ====
/-
  What the body stores, read at an index; and its locality: column `j` of the stored block reads only column `j` of
  the block of `x`ᵀ. So the columns inside the array of what the body stores do not depend on what the buffer of `x`ᵀ
  held past the array's end.
-/
import proofs.«137566_g2000506128658676_pallasbulk_1123_13_alg».proof.Proof.KBodyI
import proofs.«137566_g2000506128658676_pallasbulk_1123_13_alg».proof.Proof.KPayload
import proofs.«137566_g2000506128658676_pallasbulk_1123_13_alg».proof.Proof.LibBlock
import Idealize.ShloMosaic.PureOps.Ideal
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx

/-- The stored block at row `o`, column `j`: the three layers applied to column `j` of the block of `x`ᵀ. -/
theorem outBlock_apply (x0 : Vec Ideal S3x16384 .f32) (x1 : Vec Ideal S64x4 .f32) (x2 : Vec Ideal S32x1 .f32)
    (x3 : Vec Ideal S32x64 .f32) (x4 : Vec Ideal S5x1 .f32) (x5 : Vec Ideal S5x32 .f32) (o : Fin 5) (j : Fin 16384) :
    outBlock (F := Ideal) x0 x1 x2 x3 x4 x5 (ix2 o j) = kout x0 x1 x3 x2 x5 x4 o j := by
  unfold outBlock
  rw [View.canon_unit_zero Cert.LibBlock.hz]
  simp only [View.ld_unit_zero (S := S3x16384) Cert.LibBlock.hz, View.ld_unit_zero (S := S64x4) Cert.LibBlock.hz,
    View.ld_unit_zero (S := S32x1) Cert.LibBlock.hz, View.ld_unit_zero (S := S32x64) Cert.LibBlock.hz,
    View.ld_unit_zero (S := S5x1) Cert.LibBlock.hz, View.ld_unit_zero (S := S5x32) Cert.LibBlock.hz]
  exact pay_at x0 x1 x3 x2 x5 x4 o j

/-- The blocks of `x`ᵀ and of the result are cut alike: all rows, and the same columns. -/
theorem xsize_facts : ∀ t : Fin cfg0.N,
    win0_0.xsize (grid0.coords t) 0 = 3 ∧ win0_6.xsize (grid0.coords t) 0 = 5
      ∧ win0_0.xsize (grid0.coords t) 1 = win0_6.xsize (grid0.coords t) 1 :=
  (by decide +kernel : ∀ t : Fin grid0.N,
    win0_0.xsize (grid0.coords t) 0 = 3 ∧ win0_6.xsize (grid0.coords t) 0 = 5
      ∧ win0_0.xsize (grid0.coords t) 1 = win0_6.xsize (grid0.coords t) 1)

/-- On the columns inside the array, what the body stores is the same whatever filled `x`ᵀ's buffer past the end. -/
theorem cut_out_congr (t : Fin cfg0.N) (d d' : S3x16384.Idx → Elt Ideal .f32)
    (g : (win0_0.xblock (grid0.coords t)).Idx → Elt Ideal .f32)
    (x1 : Vec Ideal S64x4 .f32) (x2 : Vec Ideal S32x1 .f32) (x3 : Vec Ideal S32x64 .f32) (x4 : Vec Ideal S5x1 .f32) (x5 : Vec Ideal S5x32 .f32) :
    win0_6.cut (grid0.coords t) (outBlock (win0_0.fill (grid0.coords t) d g) x1 x2 x3 x4 x5)
      = win0_6.cut (grid0.coords t) (outBlock (win0_0.fill (grid0.coords t) d' g) x1 x2 x3 x4 x5) := by
  obtain ⟨h03, h65, h01⟩ := xsize_facts t
  funext j
  have hj0 : (j 0).val < 5 := h65 ▸ (j 0).isLt
  have hj1 : (j 1).val < 16384 := Nat.lt_of_lt_of_le (j 1).isLt (win0_6.xsize_le (grid0.coords t) 1)
  have hx : win0_6.xinj (grid0.coords t) j = ix2 (⟨(j 0).val, hj0⟩ : Fin 5) (⟨(j 1).val, hj1⟩ : Fin 16384) :=
    funext fun a => Fin.ext (by match a with | ⟨0, _⟩ => rfl | ⟨1, _⟩ => rfl)
  show outBlock _ x1 x2 x3 x4 x5 (win0_6.xinj (grid0.coords t) j) = outBlock _ x1 x2 x3 x4 x5 (win0_6.xinj (grid0.coords t) j)
  rw [hx, outBlock_apply, outBlock_apply]
  refine kout_congr _ _ _ _ _ _ _ _ _ fun k => ?_
  have hm : win0_0.moved (grid0.coords t) (ix2 k (⟨(j 1).val, hj1⟩ : Fin 16384)) = true :=
    (win0_0.moved_iff (grid0.coords t) _).mpr fun a => by
      match a with
      | ⟨0, _⟩ => show k.val < win0_0.xsize (grid0.coords t) 0; rw [h03]; exact k.isLt
      | ⟨1, _⟩ => show (j 1).val < win0_0.xsize (grid0.coords t) 1; rw [h01]; exact (j 1).isLt
  unfold Pipeline.Window.fill
  rw [dif_pos hm, dif_pos hm]

end Cert.KernelIdeal.KValue

end
-- ==== Proof.KData.lean ====
/-
  The kernel at the ideal instance, with every buffer's contents named.

  At point `t` the body finds in `x`ᵀ's buffer the block of columns 16384·t … of the array on the columns inside the
  array and anything past its end (only the last point, t = 122, has such columns: 1,152 inside, 15,232 outside), and
  in the other five buffers the whole small arrays. It leaves the result's buffer at `outBlock` of those. Column `j` of
  `outBlock` reads only column `j` of the block of `x`ᵀ (`cut_out_congr`), so on the columns inside the array the result
  does not depend on what lay past the end: the proof data names the block of `x`ᵀ filled out with zeros.
-/
import proofs.«137566_g2000506128658676_pallasbulk_1123_13_alg».proof.Proof.KBodyI
import proofs.«137566_g2000506128658676_pallasbulk_1123_13_alg».proof.Proof.KLocal

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The block of `x`ᵀ at point `t`, filled out with zeros past the array's end. -/
def xblk (c : Dev nD) (t : Fin cfg0.N) : S3x16384.Idx → Elt Ideal .f32 :=
  win0_0.fill (grid0.coords t) (fun _ => Scalar.ofBits (F := Ideal) .f32 0#32) (iblk m c 0 t)

/-- The proof data: the arrays as the region finds them; after the body each input's buffer at its block (`x`ᵀ's
    filled out with zeros) and the result's at `outBlock` of them. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (xblk m c t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlock (xblk m c t) (iblk m c 1 t) (iblk m c 2 t) (iblk m c 3 t) (iblk m c 4 t) (iblk m c 5 t) := by dsimp only [dats]

/-- `x`ᵀ's buffer, fetched at every point, holds its block on the columns inside the array and `d` elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
/-- The five small inputs hold their whole arrays at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is handed at point `t`: the invariant, and every window's current buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back: the two windows whose last block overhangs their array described on the part inside the
    array only, the five small inputs whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((cfg0.win 6).fill (cfg0.grid.coords t) d ((cfg0.win 6).cut (cfg0.grid.coords t) ((dats m 0 c).after 6 t)))))

/-- The body at any point. `x`ᵀ's buffer is left as found, and the result's columns inside the array are those of
    `outBlock` of the zero-filled block, whatever filled the buffer of `x`ᵀ past the array's end. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _
    (win0_0.fill (grid0.coords t) d0 (iblk m c 0 t)) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  have hx : win0_0.cut (grid0.coords t) (xblk m c t) = iblk m c 0 t := win0_0.cut_fill _ _ _
  have ho : outBlock (win0_0.fill (grid0.coords t) d0 (iblk m c 0 t)) (iblk m c 1 t) (iblk m c 2 t) (iblk m c 3 t) (iblk m c 4 t) (iblk m c 5 t)
      = win0_6.fill (grid0.coords t) (outBlock (win0_0.fill (grid0.coords t) d0 (iblk m c 0 t)) (iblk m c 1 t) (iblk m c 2 t) (iblk m c 3 t) (iblk m c 4 t) (iblk m c 5 t))
          (win0_6.cut (grid0.coords t) (outBlock (xblk m c t) (iblk m c 1 t) (iblk m c 2 t) (iblk m c 3 t) (iblk m c 4 t) (iblk m c 5 t))) :=
    (win0_6.fill_congr_cut (grid0.coords t) (cut_out_congr t d0 (fun _ => Scalar.ofBits (F := Ideal) .f32 0#32) (iblk m c 0 t) _ _ _ _ _)).symm
  isplitl [H0]
  · iexists d0
    change _ ⊢ owns (c : Thread nD τ) (st0_0 t) fullShare (win0_0.fill (grid0.coords t) d0 (win0_0.cut (grid0.coords t) (xblk m c t)))
    rw [hx]; try iexact H0
  isplitl [H1]; · iexact H1
  isplitl [H2]; · iexact H2
  isplitl [H3]; · iexact H3
  isplitl [H4]; · iexact H4
  isplitl [H5]; · iexact H5
  · iexists (outBlock (win0_0.fill (grid0.coords t) d0 (iblk m c 0 t)) (iblk m c 1 t) (iblk m c 2 t) (iblk m c 3 t) (iblk m c 4 t) (iblk m c 5 t))
    change _ ⊢ owns (c : Thread nD τ) (st0_6 t) fullShare (win0_6.fill (grid0.coords t) _ (win0_6.cut (grid0.coords t) (outBlock (xblk m c t) (iblk m c 1 t) (iblk m c 2 t) (iblk m c 3 t) (iblk m c 4 t) (iblk m c 5 t))))
    rw [← ho]; try iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- The run: every array of the pipeline ends at what the write-backs make of the proof data, every other buffer as
    the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.KValue

end
-- ==== Proof.KEntry.lean ====
/-
  What the region finds in its seven arrays. The lines before the region make them from the arguments: `x` transposed;
  the first three rows of `w1` transposed with `b1` transposed as a fourth column beside them; `w2`, `w3`, `b2`, `b3`
  transposed. Read at an index:
    xᵀ (k, b) = x (b, k);   W1a (u, k) = w1 (k, u) for k < 3,  W1a (u, 3) = b1 (0, u);
    W2ᵀ (i, u) = w2 (u, i);  W3ᵀ (o, i) = w3 (i, o);  b2ᵀ (i, 0) = b2 (0, i);  b3ᵀ (o, 0) = b3 (0, o).
-/
import proofs.«137566_g2000506128658676_pallasbulk_1123_13_alg».proof.Proof.Gen.KernelIdeal.Frame
import Idealize.ShloMosaic.PureOps.Ideal
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- `x`ᵀ. -/
theorem entry_xT (c : Dev nD) (k : Fin 3) (b : Fin 2000000) :
    (V m c main_call0_v0 : S3x2000000.Idx → Elt Ideal .f32) (ix2 k b)
      = (m ((c : Thread nD τ).loc main_arg0) : S2000000x3.Idx → Elt Ideal .f32) (ix2 b k) := by
  have e : (V m c main_call0_v0 : S3x2000000.Idx → Elt Ideal .f32)
      = transpose S3x2000000 [1, 0] (m ((c : Thread nD τ).loc main_arg0) : S2000000x3.Idx → Elt Ideal .f32) transposes_S2000000x3_S3x2000000_1_0 := by
    show StableHlo.after hostOps0 (fun b => m (c, b)) (Proc.devRef .tc main_call0_v0) = _
    after_results; rfl
  rw [e]; exact transpose_ix2_apply _ _ k b

/-- `w2`ᵀ. -/
theorem entry_w2T (c : Dev nD) (i : Fin 32) (u : Fin 64) :
    (V m c main_call0_v5 : S32x64.Idx → Elt Ideal .f32) (ix2 i u)
      = (m ((c : Thread nD τ).loc main_arg3) : S64x32.Idx → Elt Ideal .f32) (ix2 u i) := by
  have e : (V m c main_call0_v5 : S32x64.Idx → Elt Ideal .f32)
      = transpose S32x64 [1, 0] (m ((c : Thread nD τ).loc main_arg3) : S64x32.Idx → Elt Ideal .f32) transposes_S64x32_S32x64_1_0 := by
    show StableHlo.after hostOps0 (fun b => m (c, b)) (Proc.devRef .tc main_call0_v5) = _
    after_results; rfl
  rw [e]; exact transpose_ix2_apply _ _ i u

/-- `w3`ᵀ. -/
theorem entry_w3T (c : Dev nD) (o : Fin 5) (i : Fin 32) :
    (V m c main_call0_v6 : S5x32.Idx → Elt Ideal .f32) (ix2 o i)
      = (m ((c : Thread nD τ).loc main_arg5) : S32x5.Idx → Elt Ideal .f32) (ix2 i o) := by
  have e : (V m c main_call0_v6 : S5x32.Idx → Elt Ideal .f32)
      = transpose S5x32 [1, 0] (m ((c : Thread nD τ).loc main_arg5) : S32x5.Idx → Elt Ideal .f32) transposes_S32x5_S5x32_1_0 := by
    show StableHlo.after hostOps0 (fun b => m (c, b)) (Proc.devRef .tc main_call0_v6) = _
    after_results; rfl
  rw [e]; exact transpose_ix2_apply _ _ o i

/-- `b2`ᵀ. -/
theorem entry_b2T (c : Dev nD) (i : Fin 32) :
    (V m c main_call0_v7 : S32x1.Idx → Elt Ideal .f32) (ix2 i (0 : Fin 1))
      = (m ((c : Thread nD τ).loc main_arg4) : S1x32.Idx → Elt Ideal .f32) (ix2 (0 : Fin 1) i) := by
  have e : (V m c main_call0_v7 : S32x1.Idx → Elt Ideal .f32)
      = transpose S32x1 [1, 0] (m ((c : Thread nD τ).loc main_arg4) : S1x32.Idx → Elt Ideal .f32) transposes_S1x32_S32x1_1_0 := by
    show StableHlo.after hostOps0 (fun b => m (c, b)) (Proc.devRef .tc main_call0_v7) = _
    after_results; rfl
  rw [e]; exact transpose_ix2_apply _ _ i (0 : Fin 1)

/-- `b3`ᵀ. -/
theorem entry_b3T (c : Dev nD) (o : Fin 5) :
    (V m c main_call0_v8 : S5x1.Idx → Elt Ideal .f32) (ix2 o (0 : Fin 1))
      = (m ((c : Thread nD τ).loc main_arg6) : S1x5.Idx → Elt Ideal .f32) (ix2 (0 : Fin 1) o) := by
  have e : (V m c main_call0_v8 : S5x1.Idx → Elt Ideal .f32)
      = transpose S5x1 [1, 0] (m ((c : Thread nD τ).loc main_arg6) : S1x5.Idx → Elt Ideal .f32) transposes_S1x5_S5x1_1_0 := by
    show StableHlo.after hostOps0 (fun b => m (c, b)) (Proc.devRef .tc main_call0_v8) = _
    after_results; rfl
  rw [e]; exact transpose_ix2_apply _ _ o (0 : Fin 1)

/-- The first layer's weights with the bias beside them, as the lines before the region build them. -/
theorem entry_w1a_eq (c : Dev nD) : (V m c main_call0_v4 : S64x4.Idx → Elt Ideal .f32)
    = concatenate S64x4 1
        [⟨S64x3, transpose S64x3 [1, 0] (extractStridedSlice S3x64 ![0, 0] (m ((c : Thread nD τ).loc main_arg1) : S8x64.Idx → Elt Ideal .f32) slices_S8x64_S3x64_0_0) transposes_S3x64_S64x3_1_0⟩,
         ⟨S64x1, transpose S64x1 [1, 0] (m ((c : Thread nD τ).loc main_arg2) : S1x64.Idx → Elt Ideal .f32) transposes_S1x64_S64x1_1_0⟩]
        concatenates_S64x3_S64x1_S64x4_d1 := by
  show StableHlo.after hostOps0 (fun b => m (c, b)) (Proc.devRef .tc main_call0_v4) = _
  after_results; rfl

/-- Its first three columns are the first three rows of `w1`. -/
theorem entry_w1a_w (c : Dev nD) (u : Fin 64) (k : Fin 3) :
    (V m c main_call0_v4 : S64x4.Idx → Elt Ideal .f32) (ix2 u (Fin.castLE (by decide) k : Fin 4))
      = (m ((c : Thread nD τ).loc main_arg1) : S8x64.Idx → Elt Ideal .f32) (ix2 (Fin.castLE (by decide) k : Fin 8) u) := by
  rw [entry_w1a_eq]
  refine (concatenate_pair_apply_left (t := S64x4) (s₁ := S64x3) (s₂ := S64x1) (1 : Fin 2) _ _ _ (ix2 u (Fin.castLE (by decide) k : Fin 4)) rfl (ix2 u k : S64x3.Idx) fun b => ?_).trans ?_
  · match b with
    | ⟨0, _⟩ => rfl
    | ⟨1, _⟩ => rfl
  · refine (transpose_ix2_apply _ _ u k).trans ?_
    refine extractStridedSlice_apply _ _ _ (ix2 k u) (ix2 (Fin.castLE (by decide) k : Fin 8) u) fun a => ?_
    match a with
    | ⟨0, _⟩ => show k.val = 0 + k.val; omega
    | ⟨1, _⟩ => show u.val = 0 + u.val; omega

/-- Its fourth column is `b1`. -/
theorem entry_w1a_b (c : Dev nD) (u : Fin 64) :
    (V m c main_call0_v4 : S64x4.Idx → Elt Ideal .f32) (ix2 u (3 : Fin 4))
      = (m ((c : Thread nD τ).loc main_arg2) : S1x64.Idx → Elt Ideal .f32) (ix2 (0 : Fin 1) u) := by
  rw [entry_w1a_eq]
  refine (concatenate_pair_apply_right (t := S64x4) (s₁ := S64x3) (s₂ := S64x1) (1 : Fin 2) _ _ _ (ix2 u (3 : Fin 4)) rfl rfl (ix2 u (0 : Fin 1) : S64x1.Idx) (fun b hb => ?_) rfl).trans ?_
  · match b with
    | ⟨0, _⟩ => rfl
    | ⟨1, _⟩ => exact absurd rfl hb
  · exact transpose_ix2_apply _ _ u (0 : Fin 1)

end Cert.KernelIdeal.KValue

end
-- ==== Proof.KFinal.lean ====
/-
  From the blocks to the array. Point `t` writes back the columns 16384·t … of the result that lie inside the array
  (all 16,384 for t < 122, the first 1,152 at t = 122), and what it writes there is, at row `o` and column `j`, the
  perceptron of row 16384·t + j of `x`: block `t` of ONE array, the transposed result. The 123 blocks cover the
  [5, 2000000] array, so it ends holding the transposed result.
-/
import proofs.«137566_g2000506128658676_pallasbulk_1123_13_alg».proof.Proof.KData
import proofs.«137566_g2000506128658676_pallasbulk_1123_13_alg».proof.Proof.KEntry
import proofs.«137566_g2000506128658676_pallasbulk_1123_13_alg».proof.Proof.KPayload
import proofs.«137566_g2000506128658676_pallasbulk_1123_13_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The schedule's arithmetic, decided over the 123 points -/

/-- Block `t` of `x`ᵀ and of the result starts at row 0, column block `t`; it has all its rows, and 16,384 columns but
    for the last block's 1,152. -/
theorem big_facts : ∀ t : Fin cfg0.N,
    win0_0.index t 0 = 0 ∧ win0_0.index t 1 = t.val ∧ win0_6.index t 0 = 0 ∧ win0_6.index t 1 = t.val
      ∧ win0_0.xsize (grid0.coords t) 0 = 3 ∧ win0_6.xsize (grid0.coords t) 0 = 5
      ∧ win0_0.xsize (grid0.coords t) 1 = (if t.val = 122 then 1152 else 16384)
      ∧ win0_6.xsize (grid0.coords t) 1 = (if t.val = 122 then 1152 else 16384) :=
  (by decide +kernel : ∀ t : Fin grid0.N,
    win0_0.index t 0 = 0 ∧ win0_0.index t 1 = t.val ∧ win0_6.index t 0 = 0 ∧ win0_6.index t 1 = t.val
      ∧ win0_0.xsize (grid0.coords t) 0 = 3 ∧ win0_6.xsize (grid0.coords t) 0 = 5
      ∧ win0_0.xsize (grid0.coords t) 1 = (if t.val = 122 then 1152 else 16384)
      ∧ win0_6.xsize (grid0.coords t) 1 = (if t.val = 122 then 1152 else 16384))

/-- The five small windows always name block (0, 0). -/
theorem small_facts : ∀ t : Fin cfg0.N, ∀ a : Fin 2,
    win0_1.index t a = 0 ∧ win0_2.index t a = 0 ∧ win0_3.index t a = 0 ∧ win0_4.index t a = 0 ∧ win0_5.index t a = 0 :=
  (by decide +kernel : ∀ t : Fin grid0.N, ∀ a : Fin 2,
    win0_1.index t a = 0 ∧ win0_2.index t a = 0 ∧ win0_3.index t a = 0 ∧ win0_4.index t a = 0 ∧ win0_5.index t a = 0)

/-! ## The input blocks, read at an index -/

/-- Block `t` of `x`ᵀ at (k, j) is `x`ᵀ at (k, 16384·t + j). -/
theorem iblk0_apply (c : Dev nD) (t : Fin cfg0.N) (y : (win0_0.xblock (grid0.coords t)).Idx) (k : Fin 3) (b : Fin 2000000)
    (hk : k.val = (y 0).val) (hb : b.val = 16384 * t.val + (y 1).val) :
    iblk m c 0 t y = (V m c main_call0_v0 : S3x2000000.Idx → Elt Ideal .f32) (ix2 k b) := by
  obtain ⟨h0, h1, -⟩ := big_facts t
  unfold iblk
  rw [View.read_apply]
  show V m c main_call0_v0 _ = V m c main_call0_v0 _
  congr 1
  funext a
  apply Fin.ext
  match a with
  | ⟨0, _⟩ => show win0_0.index t 0 * 3 + 1 * (y 0).val = k.val; rw [h0, hk]; omega
  | ⟨1, _⟩ => show win0_0.index t 1 * 16384 + 1 * (y 1).val = b.val; rw [h1, hb]; omega

theorem iblk1_apply (c : Dev nD) (t : Fin cfg0.N) (u : Fin 64) (k : Fin 4) :
    (iblk m c 1 t : S64x4.Idx → Elt Ideal .f32) (ix2 u k) = (V m c main_call0_v4 : S64x4.Idx → Elt Ideal .f32) (ix2 u k) := by
  have h := small_facts t
  unfold iblk
  rw [View.read_apply]
  show V m c main_call0_v4 _ = V m c main_call0_v4 _
  congr 1
  funext a
  apply Fin.ext
  match a with
  | ⟨0, _⟩ => show win0_1.index t 0 * 64 + 1 * u.val = u.val; rw [(h 0).1]; omega
  | ⟨1, _⟩ => show win0_1.index t 1 * 4 + 1 * k.val = k.val; rw [(h 1).1]; omega

theorem iblk2_apply (c : Dev nD) (t : Fin cfg0.N) (i : Fin 32) (z : Fin 1) :
    (iblk m c 2 t : S32x1.Idx → Elt Ideal .f32) (ix2 i z) = (V m c main_call0_v7 : S32x1.Idx → Elt Ideal .f32) (ix2 i z) := by
  have h := small_facts t
  unfold iblk
  rw [View.read_apply]
  show V m c main_call0_v7 _ = V m c main_call0_v7 _
  congr 1
  funext a
  apply Fin.ext
  match a with
  | ⟨0, _⟩ => show win0_2.index t 0 * 32 + 1 * i.val = i.val; rw [(h 0).2.1]; omega
  | ⟨1, _⟩ => show win0_2.index t 1 * 1 + 1 * z.val = z.val; rw [(h 1).2.1]; omega

theorem iblk3_apply (c : Dev nD) (t : Fin cfg0.N) (i : Fin 32) (u : Fin 64) :
    (iblk m c 3 t : S32x64.Idx → Elt Ideal .f32) (ix2 i u) = (V m c main_call0_v5 : S32x64.Idx → Elt Ideal .f32) (ix2 i u) := by
  have h := small_facts t
  unfold iblk
  rw [View.read_apply]
  show V m c main_call0_v5 _ = V m c main_call0_v5 _
  congr 1
  funext a
  apply Fin.ext
  match a with
  | ⟨0, _⟩ => show win0_3.index t 0 * 32 + 1 * i.val = i.val; rw [(h 0).2.2.1]; omega
  | ⟨1, _⟩ => show win0_3.index t 1 * 64 + 1 * u.val = u.val; rw [(h 1).2.2.1]; omega

theorem iblk4_apply (c : Dev nD) (t : Fin cfg0.N) (o : Fin 5) (z : Fin 1) :
    (iblk m c 4 t : S5x1.Idx → Elt Ideal .f32) (ix2 o z) = (V m c main_call0_v8 : S5x1.Idx → Elt Ideal .f32) (ix2 o z) := by
  have h := small_facts t
  unfold iblk
  rw [View.read_apply]
  show V m c main_call0_v8 _ = V m c main_call0_v8 _
  congr 1
  funext a
  apply Fin.ext
  match a with
  | ⟨0, _⟩ => show win0_4.index t 0 * 5 + 1 * o.val = o.val; rw [(h 0).2.2.2.1]; omega
  | ⟨1, _⟩ => show win0_4.index t 1 * 1 + 1 * z.val = z.val; rw [(h 1).2.2.2.1]; omega

theorem iblk5_apply (c : Dev nD) (t : Fin cfg0.N) (o : Fin 5) (i : Fin 32) :
    (iblk m c 5 t : S5x32.Idx → Elt Ideal .f32) (ix2 o i) = (V m c main_call0_v6 : S5x32.Idx → Elt Ideal .f32) (ix2 o i) := by
  have h := small_facts t
  unfold iblk
  rw [View.read_apply]
  show V m c main_call0_v6 _ = V m c main_call0_v6 _
  congr 1
  funext a
  apply Fin.ext
  match a with
  | ⟨0, _⟩ => show win0_5.index t 0 * 5 + 1 * o.val = o.val; rw [(h 0).2.2.2.2]; omega
  | ⟨1, _⟩ => show win0_5.index t 1 * 32 + 1 * i.val = i.val; rw [(h 1).2.2.2.2]; omega

/-! ## The transposed result -/

/-- The [5, 2000000] array the region leaves: at (o, b) the perceptron's class `o` of row `b` of `x`. -/
def GT (c : Dev nD) : S5x2000000.Idx → Elt Ideal .f32 := fun idx =>
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (idx 1) (idx 0)

/-- What point `t` writes back is block `t` of the transposed result. -/
theorem flushed_eq (c : Dev nD) (t : Fin cfg0.N) :
    (dats m 0 c).flushed 6 t = ((cfg0.win 6).blk t).view.read (Elt Ideal) (GT m c) := by
  obtain ⟨-, -, h60, h61, h03, h65, h01, h66⟩ := big_facts t
  have ht : t.val < 123 := lt_of_lt_of_eq t.isLt (show cfg0.N = 123 from N_0)
  show (cfg0.win 6).cut (grid0.coords t) ((dats m 0 c).after 6 t) = _
  rw [after0_6]
  funext j
  rw [View.read_apply]
  have hj0 : (j 0).val < 5 := h65 ▸ (j 0).isLt
  have hj1x : (j 1).val < (if t.val = 122 then 1152 else 16384) := h66 ▸ (j 1).isLt
  have hj1 : (j 1).val < 16384 := by split_ifs at hj1x <;> omega
  have hb : 16384 * t.val + (j 1).val < 2000000 := by split_ifs at hj1x <;> omega
  have hx : win0_6.xinj (grid0.coords t) j = ix2 (⟨(j 0).val, hj0⟩ : Fin 5) (⟨(j 1).val, hj1⟩ : Fin 16384) :=
    funext fun a => Fin.ext (by match a with | ⟨0, _⟩ => rfl | ⟨1, _⟩ => rfl)
  have he : ((cfg0.win 6).blk t).view.emb j = ix2 (⟨(j 0).val, hj0⟩ : Fin 5) (⟨16384 * t.val + (j 1).val, hb⟩ : Fin 2000000) :=
    funext fun a => Fin.ext (by
      match a with
      | ⟨0, _⟩ => show win0_6.index t 0 * 5 + 1 * (j 0).val = (j 0).val; rw [h60]; omega
      | ⟨1, _⟩ => show win0_6.index t 1 * 16384 + 1 * (j 1).val = 16384 * t.val + (j 1).val; rw [h61]; omega)
  show outBlock _ _ _ _ _ _ (win0_6.xinj (grid0.coords t) j) = _
  rw [hx, he, outBlock_apply]
  show _ = Cert.Spec.mlp (Cert.Spec.row (m ((c : Thread nD τ).loc main_arg0)) ⟨16384 * t.val + (j 1).val, hb⟩) _ _ _ _ _ _ ⟨(j 0).val, hj0⟩
  refine kout_eq_mlp' _ _ _ _ _ _ _ _ _ _ _ _ _ _ _ (fun k => ?_) (fun u k => ?_) (fun u => ?_) (fun i u => ?_) (fun i => ?_) (fun o i => ?_) (fun o => ?_)
  · -- column j of the zero-filled block of xᵀ is row 16384·t + j of x
    have hm : win0_0.moved (grid0.coords t) (ix2 k (⟨(j 1).val, hj1⟩ : Fin 16384)) = true :=
      (win0_0.moved_iff (grid0.coords t) _).mpr fun a => by
        match a with
        | ⟨0, _⟩ => show k.val < win0_0.xsize (grid0.coords t) 0; rw [h03]; exact k.isLt
        | ⟨1, _⟩ => show (j 1).val < win0_0.xsize (grid0.coords t) 1; rw [h01]; exact hj1x
    unfold xblk Pipeline.Window.fill
    rw [dif_pos hm]
    exact (iblk0_apply m c t _ k ⟨16384 * t.val + (j 1).val, hb⟩ rfl rfl).trans (entry_xT m c k _)
  · exact (iblk1_apply m c t u _).trans (entry_w1a_w m c u k)
  · exact (iblk1_apply m c t u _).trans (entry_w1a_b m c u)
  · exact (iblk3_apply m c t i u).trans (entry_w2T m c i u)
  · exact (iblk2_apply m c t i _).trans (entry_b2T m c i)
  · exact (iblk5_apply m c t o i).trans (entry_w3T m c o i)
  · exact (iblk4_apply m c t o _).trans (entry_b3T m c o)

/-- Every index of the [5, 2000000] array lies in the block of the point its column names. -/
theorem cover (i : S5x2000000.Idx) :
    ∃ t : Fin cfg0.N, (cfg0.win 6).flush t = true ∧ i ∈ ((cfg0.win 6).blk t).view.set := by
  have hi0 : (i 0).val < 5 := (i 0).isLt
  have hi1 : (i 1).val < 2000000 := (i 1).isLt
  have hN : cfg0.N = 123 := N_0
  have hlt : (i 1).val / 16384 < cfg0.N := by rw [hN]; omega
  obtain ⟨-, -, h60, h61, -, h65, -, h66⟩ := big_facts ⟨(i 1).val / 16384, hlt⟩
  refine ⟨⟨(i 1).val / 16384, hlt⟩, flush0_6 _, ?_⟩
  show i ∈ ((View.whole main_call0_v9).slice (win0_6.rect ⟨(i 1).val / 16384, hlt⟩)).set
  rw [View.set_slice_whole, Rect.mem_set_unit]
  intro a
  match a with
  | ⟨0, _⟩ =>
    show win0_6.index _ 0 * 5 ≤ (i 0 : Nat) ∧ (i 0 : Nat) < win0_6.index _ 0 * 5 + win0_6.xsize (grid0.coords _) 0
    rw [h60, h65]; omega
  | ⟨1, _⟩ =>
    show win0_6.index _ 1 * 16384 ≤ (i 1 : Nat) ∧ (i 1 : Nat) < win0_6.index _ 1 * 16384 + win0_6.xsize (grid0.coords _) 1
    rw [h61, h66]
    show (i 1).val / 16384 * 16384 ≤ (i 1).val ∧ (i 1).val < (i 1).val / 16384 * 16384 + (if (i 1).val / 16384 = 122 then 1152 else 16384)
    split_ifs <;> omega

/-- The result's [5, 2000000] array ends holding the transposed result. -/
theorem final (c : Dev nD) : (dats m 0 c).arrAt 6 cfg0.N = GT m c :=
  (dats m 0 c).arrAt_eq_of_cover 6 (GT m c) (fun t _ => flushed_eq m c t) (cover)

end Cert.KernelIdeal.KValue

end
-- ==== Proof.KRun.lean ====
/-
  The kernel's run, read: the result array is `Spec.G` of the arguments, the arguments unchanged.

  After the region one host operation transposes the [5, 2000000] array the region left into the [2000000, 5] result.
  The region's array is the transposed result (the blocks module), so the result at (b, o) is the perceptron's class
  `o` of row `b` of `x`.
-/
import proofs.«137566_g2000506128658676_pallasbulk_1123_13_alg».proof.Proof.KFinal
import Idealize.ShloMosaic.Lib.ValueLayout
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The host operation after the region leaves, in the result buffer, the transpose of the region's array. -/
theorem tail_eq (c : Dev nD) :
    (Pipeline.afterTail₀ cfgs (dats m) 0 (V0 m) [hostOps1] c main_v0 : S2000000x5.Idx → EReal)
      = transpose S2000000x5 [1, 0] (GT m c) transposes_S5x2000000_S2000000x5_1_0 := by
  unfold Pipeline.afterTail₀
  show StableHlo.after hostOps1 _ (Proc.devRef .tc main_v0) = _
  after_results
  have e : Pipeline.withArrays spec0 c (V0 m c) (fun w => (dats m 0 c).arrAt w cfg0.N) (Proc.devRef .tc main_call0_v9)
      = GT m c :=
    (Pipeline.withArrays_arr spec0 launch0.win.arr_inj c (V0 m c) (fun w => (dats m 0 c).arrAt w cfg0.N) 6).trans (final m c)
  rw [e]
  rfl

/-- THE RESULT BUFFER after the program: `Spec.G` of the arguments. -/
theorem result_eq (c : Dev nD) :
    (Pipeline.afterTail₀ cfgs (dats m) 0 (V0 m) [hostOps1] c main_v0 : S2000000x5.Idx → EReal)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [tail_eq]
  funext idx
  obtain ⟨b, o, rfl⟩ : ∃ (b : Fin 2000000) (o : Fin 5), idx = ix2 b o := ⟨idx 0, idx 1, eq_ix2 idx⟩
  exact transpose_ix2_apply (GT m c) transposes_S5x2000000_S2000000x5_1_0 b o

/-- THE RUN: every weakly fair execution of the idealized kernel terminates with the result array at `Spec.G` of the
    arguments and the seven arguments unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v0) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefLayers.lean ====
/-
  The reference's three layers on one PADDED row of eight features, and the padded result array.

  The reference pads each row of `x` from three to eight features with zeros, and the rows from 2,000,000 to
  2,000,896 with zero rows. On a padded row `xr : Fin 8 → EReal`:
    h1p j = max (∑ k < 8, xr k · w1 k j + b1 j) 0
    h2p i = max (∑ j, h1p j · w2 j i + b2 i) 0
    mlp8 o = ∑ i, h2p i · w3 i o + b3 o
  When the last five features are zero the five extra products vanish (`0 · a = 0` on the extended reals, whatever
  `a` is), and `mlp8` of the padded row is `Spec.mlp` of its first three features.
-/
import proofs.«137566_g2000506128658676_pallasbulk_1123_13_alg».proof.Proof.Spec

noncomputable section

open scoped BigOperators

namespace Cert.ReferenceIdeal.RefValue

open Idealize.ShloMosaic Idealize.ShloMosaic.ValueIdx

variable (xr : Fin 8 → EReal) (x3 : Fin 3 → EReal)
  (w1 : FVec Ideal ⟨2, ![8, 64]⟩ .f32) (b1 : FVec Ideal ⟨2, ![1, 64]⟩ .f32)
  (w2 : FVec Ideal ⟨2, ![64, 32]⟩ .f32) (b2 : FVec Ideal ⟨2, ![1, 32]⟩ .f32)
  (w3 : FVec Ideal ⟨2, ![32, 5]⟩ .f32) (b3 : FVec Ideal ⟨2, ![1, 5]⟩ .f32)

/-- The first hidden layer of a padded row, unit `j`: all eight features against the eight rows of `w1`. -/
def h1p (j : Fin 64) : EReal :=
  max ((∑ k : Fin 8, xr k * w1 (ix2 k j)) + b1 (ix2 (0 : Fin 1) j)) 0

/-- The second hidden layer of a padded row, unit `i`. -/
def h2p (i : Fin 32) : EReal :=
  max ((∑ j : Fin 64, h1p xr w1 b1 j * w2 (ix2 j i)) + b2 (ix2 (0 : Fin 1) i)) 0

/-- The logits of a padded row, class `o`. -/
def mlp8 (o : Fin 5) : EReal :=
  (∑ i : Fin 32, h2p xr w1 b1 w2 b2 i * w3 (ix2 i o)) + b3 (ix2 (0 : Fin 1) o)

variable {xr x3}

/-- With the last five features zero, the first layer sees only the first three. -/
theorem h1p_eq (h0 : xr 0 = x3 0) (h1 : xr 1 = x3 1) (h2 : xr 2 = x3 2) (hz : ∀ k : Fin 8, 3 ≤ k.val → xr k = 0)
    (j : Fin 64) : h1p xr w1 b1 j = Cert.Spec.h1r x3 w1 b1 j := by
  unfold h1p Cert.Spec.h1r
  rw [Fin.sum_univ_eight, hz 3 (by decide), hz 4 (by decide), hz 5 (by decide), hz 6 (by decide), hz 7 (by decide),
    h0, h1, h2]
  simp only [zero_mul, add_zero]

/-- So do the layers after it. -/
theorem mlp8_eq (h0 : xr 0 = x3 0) (h1 : xr 1 = x3 1) (h2 : xr 2 = x3 2) (hz : ∀ k : Fin 8, 3 ≤ k.val → xr k = 0)
    (o : Fin 5) : mlp8 xr w1 b1 w2 b2 w3 b3 o = Cert.Spec.mlp x3 w1 b1 w2 b2 w3 b3 o := by
  unfold mlp8 Cert.Spec.mlp h2p Cert.Spec.h2r
  simp only [h1p_eq w1 b1 h0 h1 h2 hz]

variable (xp : FVec Ideal ⟨2, ![2000896, 8]⟩ .f32)

/-- Row `r` of the padded array. -/
def rowp (r : Fin 2000896) : Fin 8 → EReal := fun k => xp (ix2 r k)

/-- The padded result array: at `(r, o)` the logits of padded row `r`. -/
def Gp : FVec Ideal ⟨2, ![2000896, 5]⟩ .f32 := fun idx => mlp8 (rowp xp (idx 0)) w1 b1 w2 b2 w3 b3 (idx 1)

theorem Gp_ix2 (r : Fin 2000896) (o : Fin 5) :
    Gp w1 b1 w2 b2 w3 b3 xp (ix2 r o) = mlp8 (rowp xp r) w1 b1 w2 b2 w3 b3 o := rfl

end Cert.ReferenceIdeal.RefValue

end
-- ==== Proof.RefPayload.lean ====
/-
  The reference body's stored value at an index: `mlp8` of the row of the input block.

  The body computes relu(x·w1 + b1) → relu(·w2 + b2) → ·w3 + b3 on a block of 2048 padded rows: three matrix
  products into zero accumulators, each bias one row spread over the 2048 rows, each rectifier a maximum against
  the zero splat. Read at `(p, o)` the products are sums over the contracted coordinate, so the value depends on
  row `p` of the block only.
-/
import proofs.«137566_g2000506128658676_pallasbulk_1123_13_alg».proof.Proof.Gen.ReferenceIdeal.Skeleton
import proofs.«137566_g2000506128658676_pallasbulk_1123_13_alg».proof.Proof.LibBlock
import proofs.«137566_g2000506128658676_pallasbulk_1123_13_alg».proof.Proof.RefLayers

noncomputable section

open scoped BigOperators

namespace Cert.ReferenceIdeal.RefValue

open Idealize.ShloMosaic Idealize.ShloMosaic.ValueIdx Cert.ReferenceIdeal Cert.ReferenceIdeal.Gen

/-- The zero the rectifiers compare against. -/
theorem relu_zero : (Scalar.ofBits (F := Ideal) .f32 0x00000000#32 : EReal) = 0 := Ideal.ofBits_zero_f32

/-- First layer on a block: product with `w1`, bias row, rectifier, read at `(p, j)`. -/
theorem layer1_ix2 (x : FVec Ideal S2048x8 .f32) (w : FVec Ideal S8x64 .f32) (b : FVec Ideal S1x64 .f32)
    (p : Fin 2048) (j : Fin 64) :
    maximumf (addf (matmul dot_S2048x8_S8x64_S2048x64_1_0_0_1_n_n none x w (constant (F := Ideal) S2048x64 .f32 0x00000000#32))
        (broadcastTo S2048x64 b broadcasts_S1x64_S2048x64))
      (broadcast S2048x64 (Scalar.ofBits (F := Ideal) .f32 0x00000000#32)) (ix2 p j)
      = max ((∑ k : Fin 8, x (ix2 p k) * w (ix2 k j)) + b (ix2 (0 : Fin 1) j)) 0 := by
  show max (FloatOps.matmul dot_S2048x8_S8x64_S2048x64_1_0_0_1_n_n none x w (constant (F := Ideal) S2048x64 .f32 0x00000000#32) (ix2 p j)
      + broadcastTo S2048x64 b broadcasts_S1x64_S2048x64 (ix2 p j)) (Scalar.ofBits (F := Ideal) .f32 0x00000000#32) = _
  rw [relu_zero,
    Cert.LibBlock.matmul_zero_ix2 dot_S2048x8_S8x64_S2048x64_1_0_0_1_n_n rfl rfl rfl rfl rfl rfl none x w p j,
    broadcastTo_1b_ab_apply b broadcasts_S1x64_S2048x64 p j]

/-- Second layer on a block, read at `(p, i)`. -/
theorem layer2_ix2 (x : FVec Ideal S2048x64 .f32) (w : FVec Ideal S64x32 .f32) (b : FVec Ideal S1x32 .f32)
    (p : Fin 2048) (i : Fin 32) :
    maximumf (addf (matmul dot_S2048x64_S64x32_S2048x32_1_0_0_1_n_n none x w (constant (F := Ideal) S2048x32 .f32 0x00000000#32))
        (broadcastTo S2048x32 b broadcasts_S1x32_S2048x32))
      (broadcast S2048x32 (Scalar.ofBits (F := Ideal) .f32 0x00000000#32)) (ix2 p i)
      = max ((∑ j : Fin 64, x (ix2 p j) * w (ix2 j i)) + b (ix2 (0 : Fin 1) i)) 0 := by
  show max (FloatOps.matmul dot_S2048x64_S64x32_S2048x32_1_0_0_1_n_n none x w (constant (F := Ideal) S2048x32 .f32 0x00000000#32) (ix2 p i)
      + broadcastTo S2048x32 b broadcasts_S1x32_S2048x32 (ix2 p i)) (Scalar.ofBits (F := Ideal) .f32 0x00000000#32) = _
  rw [relu_zero,
    Cert.LibBlock.matmul_zero_ix2 dot_S2048x64_S64x32_S2048x32_1_0_0_1_n_n rfl rfl rfl rfl rfl rfl none x w p i,
    broadcastTo_1b_ab_apply b broadcasts_S1x32_S2048x32 p i]

/-- Third layer on a block (no rectifier), read at `(p, o)`. -/
theorem layer3_ix2 (x : FVec Ideal S2048x32 .f32) (w : FVec Ideal S32x5 .f32) (b : FVec Ideal S1x5 .f32)
    (p : Fin 2048) (o : Fin 5) :
    addf (matmul dot_S2048x32_S32x5_S2048x5_1_0_0_1_n_n none x w (constant (F := Ideal) S2048x5 .f32 0x00000000#32))
        (broadcastTo S2048x5 b broadcasts_S1x5_S2048x5) (ix2 p o)
      = (∑ i : Fin 32, x (ix2 p i) * w (ix2 i o)) + b (ix2 (0 : Fin 1) o) := by
  show FloatOps.matmul dot_S2048x32_S32x5_S2048x5_1_0_0_1_n_n none x w (constant (F := Ideal) S2048x5 .f32 0x00000000#32) (ix2 p o)
      + broadcastTo S2048x5 b broadcasts_S1x5_S2048x5 (ix2 p o) = _
  rw [Cert.LibBlock.matmul_zero_ix2 dot_S2048x32_S32x5_S2048x5_1_0_0_1_n_n rfl rfl rfl rfl rfl rfl none x w p o,
    broadcastTo_1b_ab_apply b broadcasts_S1x5_S2048x5 p o]

/-- THE STORED VALUE at `(p, o)`: the three layers of row `p` of the input block. -/
theorem pay_ix2 (x0 : Vec Ideal S2048x8 .f32) (w1 : Vec Ideal S8x64 .f32) (b1 : Vec Ideal S1x64 .f32)
    (w2 : Vec Ideal S64x32 .f32) (b2 : Vec Ideal S1x32 .f32) (w3 : Vec Ideal S32x5 .f32) (b3 : Vec Ideal S1x5 .f32)
    (p : Fin 2048) (o : Fin 5) :
    k0_pay1 (F := Ideal) x0 w1 b1 w2 b2 w3 b3 (ix2 p o) = mlp8 (fun k => x0 (ix2 p k)) w1 b1 w2 b2 w3 b3 o := by
  unfold k0_pay1
  rw [shapeCast_self]
  refine (layer3_ix2 _ w3 b3 p o).trans ?_
  unfold mlp8
  refine congrArg (· + b3 (ix2 (0 : Fin 1) o)) (Finset.sum_congr rfl fun i _ => congrArg (· * w3 (ix2 i o)) ?_)
  refine (layer2_ix2 _ w2 b2 p i).trans ?_
  unfold h2p
  refine congrArg (fun s => max (s + b2 (ix2 (0 : Fin 1) i)) 0) (Finset.sum_congr rfl fun j _ => congrArg (· * w2 (ix2 j i)) ?_)
  exact layer1_ix2 x0 w1 b1 p j

end Cert.ReferenceIdeal.RefValue

end
-- ==== Proof.RefBlocks.lean ====
/-
  From the blocks to the padded result array.

  The one region runs the body on 977 blocks of 2048 padded rows. Point `t` reads rows `2048 t … 2048 t + 2047` of
  the padded input (all eight columns) and the six weight arrays whole, and writes back rows
  `2048 t … 2048 t + 2047` of the padded result. The body's value at `(p, o)` is `mlp8` of row `p` of its input
  block, which is row `2048 t + p` of the padded input: every written block is a block of the one array `Gp`.
  The 977 blocks tile the 2,000,896 rows (row `r` is in block `r / 2048`), so the padded result ends as `Gp`.
-/
import proofs.«137566_g2000506128658676_pallasbulk_1123_13_alg».proof.Proof.Gen.ReferenceIdeal.Frame
import proofs.«137566_g2000506128658676_pallasbulk_1123_13_alg».proof.Proof.RefPayload
import Idealize.ShloMosaic.Lib.Pipeline.Value

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ)

/-- The printed index maps over the grid: the row-blocked windows (the padded input and the padded result) are at
    block `(t, 0)` at point `t`, the six weight windows at block `(0, 0)`. -/
theorem idx_facts : ∀ t : Fin cfg0.N,
    (win0_0.index t (0 : Fin 2) = t.val ∧ win0_0.index t (1 : Fin 2) = 0)
    ∧ (win0_7.index t (0 : Fin 2) = t.val ∧ win0_7.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The input block at point `t`, at `(p, k)`, is the padded input at row `2048 t + p`. -/
theorem iblk0_apply (c : Dev nD) (t : Fin cfg0.N) (p : Fin 2048) (k : Fin 8) (r : Fin 2000896)
    (hr : r.val = t.val * 2048 + p.val) :
    (iblk m c 0 t : Vec Ideal S2048x8 .f32) (ix2 p k) = (V m c main_call0_v0 : S2000896x8.Idx → EReal) (ix2 r k) := by
  unfold iblk
  rw [View.read_apply]
  have e : ((cfg0.win 0).blk t).view.emb (ix2 p k) = (ix2 r k : S2000896x8.Idx) := by
    funext a; apply Fin.ext
    obtain ⟨⟨e0, e1⟩, -⟩ := idx_facts t
    match a with
    | ⟨0, _⟩ => show win0_0.index t (0 : Fin 2) * 2048 + 1 * p.val = r.val; rw [e0, hr]; omega
    | ⟨1, _⟩ => show win0_0.index t (1 : Fin 2) * 8 + 1 * k.val = k.val; rw [e1]; omega
  exact congrArg (V m c main_call0_v0 : S2000896x8.Idx → EReal) e

/-- Each weight window's block, at every point, is its whole array. -/
theorem iblk1_eq (c : Dev nD) (t : Fin cfg0.N) :
    (iblk m c 1 t : Vec Ideal S8x64 .f32) = (V m c main_arg1 : S8x64.Idx → EReal) := by
  funext y
  unfold iblk
  rw [View.read_apply]
  have e : ((cfg0.win 1).blk t).view.emb y = (y : S8x64.Idx) := by
    funext a; apply Fin.ext
    obtain ⟨-, -, ⟨e0, e1⟩, -⟩ := idx_facts t
    match a with
    | ⟨0, _⟩ => show win0_1.index t (0 : Fin 2) * 8 + 1 * (y 0).val = (y 0).val; rw [e0]; omega
    | ⟨1, _⟩ => show win0_1.index t (1 : Fin 2) * 64 + 1 * (y 1).val = (y 1).val; rw [e1]; omega
  exact congrArg (V m c main_arg1 : S8x64.Idx → EReal) e

theorem iblk2_eq (c : Dev nD) (t : Fin cfg0.N) :
    (iblk m c 2 t : Vec Ideal S1x64 .f32) = (V m c main_arg2 : S1x64.Idx → EReal) := by
  funext y
  unfold iblk
  rw [View.read_apply]
  have e : ((cfg0.win 2).blk t).view.emb y = (y : S1x64.Idx) := by
    funext a; apply Fin.ext
    obtain ⟨-, -, -, ⟨e0, e1⟩, -⟩ := idx_facts t
    match a with
    | ⟨0, _⟩ => show win0_2.index t (0 : Fin 2) * 1 + 1 * (y 0).val = (y 0).val; rw [e0]; omega
    | ⟨1, _⟩ => show win0_2.index t (1 : Fin 2) * 64 + 1 * (y 1).val = (y 1).val; rw [e1]; omega
  exact congrArg (V m c main_arg2 : S1x64.Idx → EReal) e

theorem iblk3_eq (c : Dev nD) (t : Fin cfg0.N) :
    (iblk m c 3 t : Vec Ideal S64x32 .f32) = (V m c main_arg3 : S64x32.Idx → EReal) := by
  funext y
  unfold iblk
  rw [View.read_apply]
  have e : ((cfg0.win 3).blk t).view.emb y = (y : S64x32.Idx) := by
    funext a; apply Fin.ext
    obtain ⟨-, -, -, -, ⟨e0, e1⟩, -⟩ := idx_facts t
    match a with
    | ⟨0, _⟩ => show win0_3.index t (0 : Fin 2) * 64 + 1 * (y 0).val = (y 0).val; rw [e0]; omega
    | ⟨1, _⟩ => show win0_3.index t (1 : Fin 2) * 32 + 1 * (y 1).val = (y 1).val; rw [e1]; omega
  exact congrArg (V m c main_arg3 : S64x32.Idx → EReal) e

theorem iblk4_eq (c : Dev nD) (t : Fin cfg0.N) :
    (iblk m c 4 t : Vec Ideal S1x32 .f32) = (V m c main_arg4 : S1x32.Idx → EReal) := by
  funext y
  unfold iblk
  rw [View.read_apply]
  have e : ((cfg0.win 4).blk t).view.emb y = (y : S1x32.Idx) := by
    funext a; apply Fin.ext
    obtain ⟨-, -, -, -, -, ⟨e0, e1⟩, -⟩ := idx_facts t
    match a with
    | ⟨0, _⟩ => show win0_4.index t (0 : Fin 2) * 1 + 1 * (y 0).val = (y 0).val; rw [e0]; omega
    | ⟨1, _⟩ => show win0_4.index t (1 : Fin 2) * 32 + 1 * (y 1).val = (y 1).val; rw [e1]; omega
  exact congrArg (V m c main_arg4 : S1x32.Idx → EReal) e

theorem iblk5_eq (c : Dev nD) (t : Fin cfg0.N) :
    (iblk m c 5 t : Vec Ideal S32x5 .f32) = (V m c main_arg5 : S32x5.Idx → EReal) := by
  funext y
  unfold iblk
  rw [View.read_apply]
  have e : ((cfg0.win 5).blk t).view.emb y = (y : S32x5.Idx) := by
    funext a; apply Fin.ext
    obtain ⟨-, -, -, -, -, -, ⟨e0, e1⟩, -⟩ := idx_facts t
    match a with
    | ⟨0, _⟩ => show win0_5.index t (0 : Fin 2) * 32 + 1 * (y 0).val = (y 0).val; rw [e0]; omega
    | ⟨1, _⟩ => show win0_5.index t (1 : Fin 2) * 5 + 1 * (y 1).val = (y 1).val; rw [e1]; omega
  exact congrArg (V m c main_arg5 : S32x5.Idx → EReal) e

theorem iblk6_eq (c : Dev nD) (t : Fin cfg0.N) :
    (iblk m c 6 t : Vec Ideal S1x5 .f32) = (V m c main_arg6 : S1x5.Idx → EReal) := by
  funext y
  unfold iblk
  rw [View.read_apply]
  have e : ((cfg0.win 6).blk t).view.emb y = (y : S1x5.Idx) := by
    funext a; apply Fin.ext
    obtain ⟨-, -, -, -, -, -, -, ⟨e0, e1⟩⟩ := idx_facts t
    match a with
    | ⟨0, _⟩ => show win0_6.index t (0 : Fin 2) * 1 + 1 * (y 0).val = (y 0).val; rw [e0]; omega
    | ⟨1, _⟩ => show win0_6.index t (1 : Fin 2) * 5 + 1 * (y 1).val = (y 1).val; rw [e1]; omega
  exact congrArg (V m c main_arg6 : S1x5.Idx → EReal) e

/-- The padded result array the region leaves: `Gp` of the arrays as the region finds them. -/
abbrev GpV (c : Dev nD) : S2000896x5.Idx → EReal :=
  Gp (V m c main_arg1) (V m c main_arg2) (V m c main_arg3) (V m c main_arg4) (V m c main_arg5) (V m c main_arg6)
    (V m c main_call0_v0)

/-- WHAT POINT `t` WRITES BACK is block `t` of `Gp`. -/
theorem flushed_eq (c : Dev nD) (t : Fin cfg0.N) :
    (dats m 0 c).flushed 7 t = ((cfg0.win 7).blk t).view.read (Elt Ideal) (GpV m c) := by
  show (cfg0.win 7).cut (grid0.coords t) ((dats m 0 c).after 7 t) = _
  rw [after0_7]
  unfold out0_7
  rw [View.canon_unit_zero Cert.LibBlock.hz]
  simp only [View.ld_unit_zero (S := S2048x8) Cert.LibBlock.hz, View.ld_unit_zero (S := S8x64) Cert.LibBlock.hz,
    View.ld_unit_zero (S := S1x64) Cert.LibBlock.hz, View.ld_unit_zero (S := S64x32) Cert.LibBlock.hz,
    View.ld_unit_zero (S := S1x32) Cert.LibBlock.hz, View.ld_unit_zero (S := S32x5) Cert.LibBlock.hz,
    View.ld_unit_zero (S := S1x5) Cert.LibBlock.hz]
  rw [iblk1_eq, iblk2_eq, iblk3_eq, iblk4_eq, iblk5_eq, iblk6_eq]
  funext j
  obtain ⟨p, o, rfl⟩ : ∃ (p : Fin 2048) (o : Fin 5), j = ix2 p o := ⟨j 0, j 1, eq_ix2 j⟩
  obtain ⟨-, ⟨e0, e1⟩, -⟩ := idx_facts t
  have hN : cfg0.N = 977 := N_0
  have ht : t.val < 977 := hN ▸ t.isLt
  let r : Fin 2000896 := ⟨t.val * 2048 + p.val, by have := p.isLt; omega⟩
  have e : ((cfg0.win 7).blk t).view.emb (ix2 p o) = (ix2 r o : S2000896x5.Idx) := by
    funext a; apply Fin.ext
    match a with
    | ⟨0, _⟩ => show win0_7.index t (0 : Fin 2) * 2048 + 1 * p.val = t.val * 2048 + p.val; rw [e0]; omega
    | ⟨1, _⟩ => show win0_7.index t (1 : Fin 2) * 5 + 1 * o.val = o.val; rw [e1]; omega
  show k0_pay1 (F := Ideal) (iblk m c 0 t) (V m c main_arg1) (V m c main_arg2) (V m c main_arg3) (V m c main_arg4)
      (V m c main_arg5) (V m c main_arg6) (ix2 p o) = GpV m c (((cfg0.win 7).blk t).view.emb (ix2 p o))
  rw [e]
  refine (pay_ix2 (iblk m c 0 t) (V m c main_arg1) (V m c main_arg2) (V m c main_arg3) (V m c main_arg4)
      (V m c main_arg5) (V m c main_arg6) p o).trans ?_
  show _ = mlp8 (rowp (V m c main_call0_v0) r) _ _ _ _ _ _ o
  refine congrArg (fun xr => mlp8 xr (V m c main_arg1) (V m c main_arg2) (V m c main_arg3) (V m c main_arg4)
      (V m c main_arg5) (V m c main_arg6) o) (funext fun k => ?_)
  exact iblk0_apply m c t p k r rfl

/-- An index of the padded result is in point `t`'s block iff each coordinate is in the block's range on its axis. -/
theorem mem_blk (t : Fin cfg0.N) (i : S2000896x5.Idx) :
    i ∈ ((cfg0.win 7).blk t).view.set ↔ ∀ a : Fin 2, win0_7.index t a * S2048x5.size a ≤ (i a).val
      ∧ (i a).val < win0_7.index t a * S2048x5.size a + S2048x5.size a := by
  show i ∈ ((View.whole main_call0_v1).slice (win0_7.rect t)).set ↔ _
  rw [View.set_slice_whole, Rect.mem_set_unit]
  exact Iff.rfl

/-- Row `r` of the padded result is in the block of point `r / 2048`. -/
theorem cover (i : S2000896x5.Idx) :
    ∃ t : Fin cfg0.N, (cfg0.win 7).flush t = true ∧ i ∈ ((cfg0.win 7).blk t).view.set := by
  have hN : cfg0.N = 977 := N_0
  have hi0 : (i 0).val < 2000896 := (i 0).isLt
  have hi1 : (i 1).val < 5 := (i 1).isLt
  let t : Fin cfg0.N := ⟨(i 0).val / 2048, by rw [hN]; omega⟩
  obtain ⟨-, ⟨e0, e1⟩, -⟩ := idx_facts t
  have e0' : win0_7.index t (0 : Fin 2) = (i 0).val / 2048 := e0
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    rw [e0']; omega
  | ⟨1, _⟩ =>
    show win0_7.index t (1 : Fin 2) * 5 ≤ (i 1).val ∧ (i 1).val < win0_7.index t (1 : Fin 2) * 5 + 5
    rw [e1]; omega

/-- THE PADDED RESULT after the region: `Gp` of the padded input and the weights. -/
theorem final (c : Dev nD) : (dats m 0 c).arrAt 7 cfg0.N = GpV m c :=
  (dats m 0 c).arrAt_eq_of_cover 7 (GpV m c) (fun t _ => flushed_eq m c t) cover

end Cert.ReferenceIdeal.RefValue

end
-- ==== Proof.RefPadded.lean ====
/-
  The padded input array, read at an index.

  Before the region the program pads `x : [2000000, 3]` to `[2000896, 8]` with the value of the integer zero
  converted to a float, which is the extended real `0`: at `(r, k)` with `r < 2000000` and `k < 3` the padded
  array holds `x (r, k)`, and at every column `k ≥ 3` it holds `0`.
-/
import proofs.«137566_g2000506128658676_pallasbulk_1123_13_alg».proof.Proof.Gen.ReferenceIdeal.Frame
import Idealize.ShloMosaic.Lib.KernelVsHost
import Idealize.ShloMosaic.Lib.Tactic

noncomputable section

namespace Cert.ReferenceIdeal.RefValue

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

/-- What the region finds in the padded array: the pad of the first argument by the converted integer zero. -/
theorem V_padded (c : Dev nD) :
    (V m c main_call0_v0 : S2000896x8.Idx → EReal)
      = pad S2000896x8 ![0, 0] ![896, 5] ![0, 0] (m ((c : Thread nD τ).loc main_arg0) : S2000000x3.Idx → EReal)
          (sitofp (F := Ideal) .f32 (constantI S_ 32 0#32)) pads_S2000000x3_S2000896x8_08960_050 h_S_ := by
  show StableHlo.after hostOps0 (fun b => m (c, b)) (Proc.devRef .tc main_call0_v0) = _
  after_results
  rfl

/-- Inside the operand the padded array is `x`. -/
theorem V_padded_inside (c : Dev nD) (r' : Fin 2000896) (k' : Fin 8) (r : Fin 2000000) (k : Fin 3)
    (hr : r'.val = r.val) (hk : k'.val = k.val) :
    (V m c main_call0_v0 : S2000896x8.Idx → EReal) (ix2 r' k')
      = (m ((c : Thread nD τ).loc main_arg0) : S2000000x3.Idx → EReal) (ix2 r k) := by
  rw [V_padded]
  refine pad_apply_of_inside _ _ _ _ _ pads_S2000000x3_S2000896x8_08960_050 h_S_ (ix2 r' k') (ix2 r k) fun a => ?_
  match a with
  | ⟨0, _⟩ => show r'.val = 0 + r.val * (0 + 1); omega
  | ⟨1, _⟩ => show k'.val = 0 + k.val * (0 + 1); omega

/-- In the five added columns it is zero. -/
theorem V_padded_col (c : Dev nD) (r' : Fin 2000896) (k' : Fin 8) (hk : 3 ≤ k'.val) :
    (V m c main_call0_v0 : S2000896x8.Idx → EReal) (ix2 r' k') = (0 : EReal) := by
  rw [V_padded]
  refine (pad_apply_of_not_inside _ _ _ _ _ pads_S2000000x3_S2000896x8_08960_050 h_S_ (ix2 r' k') (1 : Fin 2) ?_).trans ?_
  · rintro ⟨-, -, h⟩
    have h' : (k'.val - 0) / (0 + 1) < 3 := h
    omega
  · exact sitofp_zero (φ := .f32)

end Cert.ReferenceIdeal.RefValue

end
-- ==== Proof.RefRun.lean ====
/-
  The reference's run, read: the result array is `Spec.G` of the arguments, the arguments unchanged.

  After the region one host operation cuts rows `0 … 1999999` out of the padded result. The padded result is `Gp`
  of the padded input (the blocks module), so the result at `(b, o)` is `mlp8` of padded row `b`; that row is row
  `b` of `x` followed by five zeros (the padded-array module), and `mlp8` of it is `Spec.mlp` of row `b` of `x`.
-/
import proofs.«137566_g2000506128658676_pallasbulk_1123_13_alg».proof.Proof.RefBlocks
import proofs.«137566_g2000506128658676_pallasbulk_1123_13_alg».proof.Proof.RefPadded
import Idealize.ShloMosaic.Lib.Tactic

noncomputable section

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The host operation after the region leaves, in the result buffer, the slice of the padded result. -/
theorem tail_eq (c : Dev nD) :
    (Pipeline.afterTail₀ cfgs (dats m) 0 (V0 m) [hostOps1] c main_v0 : S2000000x5.Idx → EReal)
      = extractStridedSlice S2000000x5 ![0, 0] (GpV m c) slices_S2000896x5_S2000000x5_0_0 := by
  unfold Pipeline.afterTail₀
  show StableHlo.after hostOps1 _ (Proc.devRef .tc main_v0) = _
  after_results
  have e : Pipeline.withArrays spec0 c (V0 m c) (fun w => (dats m 0 c).arrAt w cfg0.N) (Proc.devRef .tc main_call0_v1)
      = GpV m c :=
    (Pipeline.withArrays_arr spec0 launch0.win.arr_inj c (V0 m c) (fun w => (dats m 0 c).arrAt w cfg0.N) 7).trans (final m c)
  rw [e]
  rfl

/-- The slice of the padded result at `(b, o)`: the logits of row `b` of `x`. -/
theorem slice_ix2 (c : Dev nD) (b : Fin 2000000) (o : Fin 5) :
    extractStridedSlice S2000000x5 ![0, 0] (GpV m c) slices_S2000896x5_S2000000x5_0_0 (ix2 b o)
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) b o := by
  have hb : b.val < 2000896 := by have := b.isLt; omega
  refine (extractStridedSlice_apply _ (GpV m c) slices_S2000896x5_S2000000x5_0_0 (ix2 b o)
    (ix2 (⟨b.val, hb⟩ : Fin 2000896) o) (fun a => ?_)).trans ?_
  · match a with
    | ⟨0, _⟩ => show b.val = 0 + b.val; omega
    | ⟨1, _⟩ => show o.val = 0 + o.val; omega
  show mlp8 (rowp (V m c main_call0_v0) ⟨b.val, hb⟩) (V m c main_arg1) (V m c main_arg2) (V m c main_arg3)
    (V m c main_arg4) (V m c main_arg5) (V m c main_arg6) o = _
  rw [V_main_arg1, V_main_arg2, V_main_arg3, V_main_arg4, V_main_arg5, V_main_arg6]
  exact mlp8_eq _ _ _ _ _ _ (V_padded_inside m c ⟨b.val, hb⟩ 0 b 0 rfl rfl) (V_padded_inside m c ⟨b.val, hb⟩ 1 b 1 rfl rfl)
    (V_padded_inside m c ⟨b.val, hb⟩ 2 b 2 rfl rfl) (fun k hk => V_padded_col m c ⟨b.val, hb⟩ k hk) o

/-- THE RESULT BUFFER after the program: `Spec.G` of the arguments. -/
theorem result_eq (c : Dev nD) :
    (Pipeline.afterTail₀ cfgs (dats m) 0 (V0 m) [hostOps1] c main_v0 : S2000000x5.Idx → EReal)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [tail_eq]
  funext idx
  obtain ⟨b, o, rfl⟩ : ∃ (b : Fin 2000000) (o : Fin 5), idx = ix2 b o := ⟨idx 0, idx 1, eq_ix2 idx⟩
  exact slice_ix2 m c b o

/-- THE RUN: every weakly fair execution of the reference terminates with the result array at `Spec.G` of the
    arguments and the seven arguments unchanged. -/
theorem run : θ_run (Cert.ReferenceIdeal.defs (F := Ideal)) (onTc (τ := τ) (main (F := Ideal))) ⟨m, fun _ => 0, ρ⟩ (fun r => ∀ c : Dev nD,
      r.2.mem ((c.tc : Thread nD τ).loc main_v0) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c)))⟩)
    (run_main m ρ)

end Cert.ReferenceIdeal.RefValue

end
-- ==== Proof.lean ====
/-
  The proof of the certificate's five claims for a three-layer perceptron 3 → 64 → 32 → 5 over 2,000,000 rows.

  Both programs are one fused kernel over blocks of rows. The kernel works on the transposed problem: it reads blocks
  of 16,384 columns of `x`ᵀ (the last one overhanging the array), multiplies weights · activations, carries the first
  bias as a fourth column of the first weight matrix against a row of ones, and transposes its [5, 2000000] result
  back. The reference pads `x` with zero rows and zero columns to [2000896, 8], reads blocks of 2,048 rows, multiplies
  activations · weights, and cuts the padding off. On the extended reals both compute, at (b, o),
      ∑ᵢ max (∑ⱼ max (x b 0 · w1 0 j + x b 1 · w1 1 j + x b 2 · w1 2 j + b1 j) 0 · w2 j i + b2 i) 0 · w3 i o + b3 o:
  sums and products commute, 0 · w = 0 whatever w is, and w · 1 = w, so neither finiteness nor any other precondition
  enters.

  The frames: the kernel's (at both instances) by a body triple that holds whatever the staging buffers held, with
  proof data that relates nothing; the reference's is generated. The idealization rewrote nothing.
-/
import proofs.«137566_g2000506128658676_pallasbulk_1123_13_alg».proof.Defs
import proofs.«137566_g2000506128658676_pallasbulk_1123_13_alg».proof.Proof.Gen.Kernel
import proofs.«137566_g2000506128658676_pallasbulk_1123_13_alg».proof.Proof.Gen.KernelIdeal
import proofs.«137566_g2000506128658676_pallasbulk_1123_13_alg».proof.Proof.Gen.ReferenceIdeal
import proofs.«137566_g2000506128658676_pallasbulk_1123_13_alg».proof.Proof.Gen.ReferenceIdeal.Frame
import proofs.«137566_g2000506128658676_pallasbulk_1123_13_alg».proof.Proof.Gen.Pre_finite_inputs
import proofs.«137566_g2000506128658676_pallasbulk_1123_13_alg».proof.Proof.KBodyB
import proofs.«137566_g2000506128658676_pallasbulk_1123_13_alg».proof.Proof.KBodyI
import proofs.«137566_g2000506128658676_pallasbulk_1123_13_alg».proof.Proof.KRun
import proofs.«137566_g2000506128658676_pallasbulk_1123_13_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ => Cert.ReferenceIdeal.Gen.frame (F := Ideal) m ρ

/-- Run from memories that agree on the arguments, both idealized programs end with the result array at the one
    function `Spec.G` of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
